-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x1024 : Shape := ⟨3, ![128, 256, 1024]⟩
abbrev S128x576x1024 : Shape := ⟨3, ![128, 576, 1024]⟩
abbrev S1024x1024 : Shape := ⟨2, ![1024, 1024]⟩
abbrev S1024 : Shape := ⟨1, ![1024]⟩
abbrev S_ : Shape := ⟨0, ![]⟩

class Facts : Prop where
  bcast_S_S128x256x1024 : S_.BroadcastsInDim S128x256x1024 (![] : Fin 0 → Fin S128x256x1024.rank)
  reducesTo_S128x256x1024_S_d0_1_2 : S128x256x1024.ReducesTo [0, 1, 2] S_
  h_S_ : 0 < S_.numel
  bcast_S_S128x576x1024 : S_.BroadcastsInDim S128x576x1024 (![] : Fin 0 → Fin S128x576x1024.rank)
  reducesTo_S128x576x1024_S_d0_1_2 : S128x576x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S128x256x1024 .f32) (main_arg1 : FVec F S128x576x1024 .f32) (main_arg2 : FVec F S1024x1024 .f32) (main_arg3 : FVec F S1024 .f32) (main_arg4 : FVec F S1024x1024 .f32) (main_arg5 : FVec F S1024 .f32) : IVec S_ 1 :=
  let main_v0 : FVec F S128x256x1024 .f32 := Host.absf main_arg0
  let main_cst : FVec F S_ .f32 := constant S_ .f32 0x7F800000#32
  let main_v1 : FVec F S128x256x1024 .f32 := broadcastInDim S128x256x1024 ![] bcast_S_S128x256x1024 main_cst
  let main_v2 : IVec S128x256x1024 1 := cmpf .olt main_v0 main_v1
  let main_c : IVec S_ 1 := constantI S_ 1 1#1
  let main_v3 : IVec S_ 1 := (fun x v => Host.reduce IntOp.andi x v reducesTo_S128x256x1024_S_d0_1_2 h_S_) main_v2 main_c
  let main_v4 : FVec F S128x576x1024 .f32 := Host.absf main_arg1
  let main_cst_0 : FVec F S_ .f32 := constant S_ .f32 0x7F800000#32
  let main_v5 : FVec F S128x576x1024 .f32 := broadcastInDim S128x576x1024 ![] bcast_S_S128x576x1024 main_cst_0
  let main_v6 : IVec S128x576x1024 1 := cmpf .olt main_v4 main_v5
  let main_c_1 : IVec S_ 1 := constantI S_ 1 1#1
  let main_v7 : IVec S_ 1 := (fun x v => Host.reduce IntOp.andi x v reducesTo_S128x576x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S128x256x1024 : Shape := ⟨3, ![128, 256, 1024]⟩
abbrev S128x576x1024 : Shape := ⟨3, ![128, 576, 1024]⟩
abbrev S1024x1024 : Shape := ⟨2, ![1024, 1024]⟩
abbrev S1024 : Shape := ⟨1, ![1024]⟩
abbrev S1x1024 : Shape := ⟨2, ![1, 1024]⟩
abbrev S128x256x576 : Shape := ⟨3, ![128, 256, 576]⟩
abbrev S128x576x256 : Shape := ⟨3, ![128, 576, 256]⟩
abbrev S1x256x1024 : Shape := ⟨3, ![1, 256, 1024]⟩
abbrev S1x576x1024 : Shape := ⟨3, ![1, 576, 1024]⟩
abbrev S1x256x576 : Shape := ⟨3, ![1, 256, 576]⟩
abbrev S1x576x256 : Shape := ⟨3, ![1, 576, 256]⟩
abbrev S1x576 : Shape := ⟨2, ![1, 576]⟩
abbrev S1x1x576 : Shape := ⟨3, ![1, 1, 576]⟩
abbrev S1x256 : Shape := ⟨2, ![1, 256]⟩
abbrev S1x256x1 : Shape := ⟨3, ![1, 256, 1]⟩
abbrev S256x1024 : Shape := ⟨2, ![256, 1024]⟩
abbrev S1x1x1024 : Shape := ⟨3, ![1, 1, 1024]⟩
abbrev S1x1x256 : Shape := ⟨3, ![1, 1, 256]⟩
abbrev S1x576x1 : Shape := ⟨3, ![1, 576, 1]⟩
abbrev S576x1024 : Shape := ⟨2, ![576, 1024]⟩

abbrev nBuf : Space → Nat
  | .hbm => 14
  | .vmem => 16
  | .smem => 0
  | _ => 0

abbrev bufTy : (tb : Table) → Fin (tcTables nBuf tb) → BufTy
  | .hbm, ⟨0, _⟩ => ⟨S128x256x1024, .f32⟩
  | .hbm, ⟨1, _⟩ => ⟨S128x576x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S1024x1024, .bf16⟩
  | .hbm, ⟨10, _⟩ => ⟨S128x256x1024, .f32⟩
  | .hbm, ⟨11, _⟩ => ⟨S128x576x1024, .f32⟩
  | .hbm, ⟨12, _⟩ => ⟨S128x256x576, .f32⟩
  | .hbm, ⟨13, _⟩ => ⟨S128x576x256, .f32⟩
  | .local _ .vmem, ⟨0, _⟩ => ⟨S1x256x1024, .f32⟩
  | .local _ .vmem, ⟨1, _⟩ => ⟨S1x256x1024, .f32⟩
  | .local _ .vmem, ⟨2, _⟩ => ⟨S1x576x1024, .f32⟩
  | .local _ .vmem, ⟨3, _⟩ => ⟨S1x576x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x576x1024, .f32⟩
  | .local _ .vmem, ⟨11, _⟩ => ⟨S1x576x1024, .f32⟩
  | .local _ .vmem, ⟨12, _⟩ => ⟨S1x256x576, .f32⟩
  | .local _ .vmem, ⟨13, _⟩ => ⟨S1x256x576, .f32⟩
  | .local _ .vmem, ⟨14, _⟩ => ⟨S1x576x256, .f32⟩
  | .local _ .vmem, ⟨15, _⟩ => ⟨S1x576x256, .f32⟩
  | _, _ => ⟨S128x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x576x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x576x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x576x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S1024_S1x1024 : S1024.ShapeCasts S1x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  inb_S1x576x1024_S1x576x1024_0_0_0 : ∀ a, (![0, 0, 0] : Fin 3 → Nat) a + S1x576x1024.size a ≤ S1x576x1024.size a
  h_S1x576x1024 : 0 < S1x576x1024.numel
  reduces_S1x256x576_S1x576 : S1x256x576.Reduces [1] S1x576
  shapeCasts_S1x576_S1x1x576 : S1x576.ShapeCasts S1x1x576
  broadcasts_S1x1x576_S1x256x576 : S1x1x576.Broadcasts S1x256x576
  reduces_S1x256x576_S1x256 : S1x256x576.Reduces [2] S1x256
  shapeCasts_S1x256_S1x256x1 : S1x256.ShapeCasts S1x256x1
  broadcasts_S1x256x1_S1x256x576 : S1x256x1.Broadcasts S1x256x576
  inb_S1x256x576_S1x256x576_0_0_0 : ∀ a, (![0, 0, 0] : Fin 3 → Nat) a + S1x256x576.size a ≤ S1x256x576.size a
  h_S1x256x576 : 0 < S1x256x576.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S1x256x1024 : S256x1024.ShapeCasts S1x256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  broadcasts_S1x1x1024_S1x256x1024 : S1x1x1024.Broadcasts S1x256x1024
  reduces_S1x576x256_S1x256 : S1x576x256.Reduces [1] S1x256
  shapeCasts_S1x256_S1x1x256 : S1x256.ShapeCasts S1x1x256
  broadcasts_S1x1x256_S1x576x256 : S1x1x256.Broadcasts S1x576x256
  reduces_S1x576x256_S1x576 : S1x576x256.Reduces [2] S1x576
  shapeCasts_S1x576_S1x576x1 : S1x576.ShapeCasts S1x576x1
  broadcasts_S1x576x1_S1x576x256 : S1x576x1.Broadcasts S1x576x256
  inb_S1x576x256_S1x576x256_0_0_0 : ∀ a, (![0, 0, 0] : Fin 3 → Nat) a + S1x576x256.size a ≤ S1x576x256.size a
  h_S1x576x256 : 0 < S1x576x256.numel
  shapeCasts_S1x576x1024_S576x1024 : S1x576x1024.ShapeCasts S576x1024
  shapeCasts_S576x1024_S1x576x1024 : S576x1024.ShapeCasts S1x576x1024
  broadcasts_S1x1x1024_S1x576x1024 : S1x1x1024.Broadcasts S1x576x1024
  dot_S1x256x1024_S1x576x1024_S1x256x576_2_2_1_1_0_0_wf : DotDims.WF S1x256x1024 S1x576x1024 S1x256x576 [2] [2] [1] [1] [0] [0]
  dot_S1x256x576_S1x576x1024_S1x256x1024_2_1_1_2_0_0_wf : DotDims.WF S1x256x576 S1x576x1024 S1x256x1024 [2] [1] [1] [2] [0] [0]
  dot_S256x1024_S1024x1024_S256x1024_1_1_0_0_n_n_wf : DotDims.WF S256x1024 S1024x1024 S256x1024 [1] [1] [0] [0] [] []
  dot_S1x576x1024_S1x256x1024_S1x576x256_2_2_1_1_0_0_wf : DotDims.WF S1x576x1024 S1x256x1024 S1x576x256 [2] [2] [1] [1] [0] [0]
  dot_S1x576x256_S1x256x1024_S1x576x1024_2_1_1_2_0_0_wf : DotDims.WF S1x576x256 S1x256x1024 S1x576x1024 [2] [1] [1] [2] [0] [0]
  dot_S576x1024_S1024x1024_S576x1024_1_1_0_0_n_n_wf : DotDims.WF S576x1024 S1024x1024 S576x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S128x256x1024.size a
  hwx0_0 : ∀ i : grid0.Coords, EltTy.bits .f32 = 32 ∨ (Rect.block (s := S128x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x576x1024.size a ≤ S128x576x1024.size a
  hwx0_1 : ∀ i : grid0.Coords, EltTy.bits .f32 = 32 ∨ (Rect.block (s := S128x576x1024) S1x576x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S128x256x1024.size a
  hwx0_6 : ∀ i : grid0.Coords, EltTy.bits .f32 = 32 ∨ (Rect.block (s := S128x256x1024) S1x256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x576x1024.size a ≤ S128x576x1024.size a
  hwx0_7 : ∀ i : grid0.Coords, EltTy.bits .f32 = 32 ∨ (Rect.block (s := S128x576x1024) S1x576x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x576.size a ≤ S128x256x576.size a
  hwx0_8 : ∀ i : grid0.Coords, EltTy.bits .f32 = 32 ∨ (Rect.block (s := S128x256x576) S1x256x576.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x576x256.size a ≤ S128x576x256.size a
  hwx0_9 : ∀ i : grid0.Coords, EltTy.bits .f32 = 32 ∨ (Rect.block (s := S128x576x256) S1x576x256.size (cc0_transform_9 i) (hinb0_9 i)).WholeWords (EltTy.packing .f32)

variable [Facts₀]

def dot_S1x256x1024_S1x576x1024_S1x256x576_2_2_1_1_0_0 : DotDims S1x256x1024 S1x576x1024 S1x256x576 where
  lhsContracting := [2]
  rhsContracting := [2]
  lhsNonContracting := [1]
  rhsNonContracting := [1]
  lhsBatch := [0]
  rhsBatch := [0]
  wf := dot_S1x256x1024_S1x576x1024_S1x256x576_2_2_1_1_0_0_wf
def dot_S1x256x576_S1x576x1024_S1x256x1024_2_1_1_2_0_0 : DotDims S1x256x576 S1x576x1024 S1x256x1024 where
  lhsContracting := [2]
  rhsContracting := [1]
  lhsNonContracting := [1]
  rhsNonContracting := [2]
  lhsBatch := [0]
  rhsBatch := [0]
  wf := dot_S1x256x576_S1x576x1024_S1x256x1024_2_1_1_2_0_0_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S1x576x1024_S1x256x1024_S1x576x256_2_2_1_1_0_0 : DotDims S1x576x1024 S1x256x1024 S1x576x256 where
  lhsContracting := [2]
  rhsContracting := [2]
  lhsNonContracting := [1]
  rhsNonContracting := [1]
  lhsBatch := [0]
  rhsBatch := [0]
  wf := dot_S1x576x1024_S1x256x1024_S1x576x256_2_2_1_1_0_0_wf
def dot_S1x576x256_S1x256x1024_S1x576x1024_2_1_1_2_0_0 : DotDims S1x576x256 S1x256x1024 S1x576x1024 where
  lhsContracting := [2]
  rhsContracting := [1]
  lhsNonContracting := [1]
  rhsNonContracting := [2]
  lhsBatch := [0]
  rhsBatch := [0]
  wf := dot_S1x576x256_S1x256x1024_S1x576x1024_2_1_1_2_0_0_wf
def dot_S576x1024_S1024x1024_S576x1024_1_1_0_0_n_n : DotDims S576x1024 S1024x1024 S576x1024 where
  lhsContracting := [1]
  rhsContracting := [1]
  lhsNonContracting := [0]
  rhsNonContracting := [0]
  lhsBatch := []
  rhsBatch := []
  wf := dot_S576x1024_S1024x1024_S576x1024_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x576x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S1x256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1x576x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_2) S1x256x576.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_3) S1x576x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S128x256x1024 : Shape := ⟨3, ![128, 256, 1024]⟩
abbrev S128x576x1024 : Shape := ⟨3, ![128, 576, 1024]⟩
abbrev S1024x1024 : Shape := ⟨2, ![1024, 1024]⟩
abbrev S1024 : Shape := ⟨1, ![1024]⟩
abbrev S128x576x256 : Shape := ⟨3, ![128, 576, 256]⟩
abbrev S_ : Shape := ⟨0, ![]⟩
abbrev S128x576 : Shape := ⟨2, ![128, 576]⟩
abbrev S128x576x1 : Shape := ⟨3, ![128, 576, 1]⟩
abbrev S128x256x576 : Shape := ⟨3, ![128, 256, 576]⟩
abbrev S128x256 : Shape := ⟨2, ![128, 256]⟩
abbrev S128x256x1 : Shape := ⟨3, ![128, 256, 1]⟩
abbrev S1x1x1024 : Shape := ⟨3, ![1, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S128x256x1024, .f32⟩
  | .hbm, ⟨1, _⟩ => ⟨S128x576x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S128x576x256, .f32⟩
  | .hbm, ⟨7, _⟩ => ⟨S_, .f32⟩
  | .hbm, ⟨8, _⟩ => ⟨S128x576x256, .f32⟩
  | .hbm, ⟨9, _⟩ => ⟨S128x576x256, .f32⟩
  | .hbm, ⟨10, _⟩ => ⟨S128x576x256, .f32⟩
  | .hbm, ⟨11, _⟩ => ⟨S_, .f32⟩
  | .hbm, ⟨12, _⟩ => ⟨S128x576, .f32⟩
  | .hbm, ⟨13, _⟩ => ⟨S128x576x1, .f32⟩
  | .hbm, ⟨14, _⟩ => ⟨S_, .f32⟩
  | .hbm, ⟨15, _⟩ => ⟨S128x576x1, .f32⟩
  | .hbm, ⟨16, _⟩ => ⟨S128x576x1, .f32⟩
  | .hbm, ⟨17, _⟩ => ⟨S128x576x256, .f32⟩
  | .hbm, ⟨18, _⟩ => ⟨S128x576x256, .f32⟩
  | .hbm, ⟨19, _⟩ => ⟨S128x256x576, .f32⟩
  | .hbm, ⟨20, _⟩ => ⟨S_, .f32⟩
  | .hbm, ⟨21, _⟩ => ⟨S128x256x576, .f32⟩
  | .hbm, ⟨22, _⟩ => ⟨S128x256x576, .f32⟩
  | .hbm, ⟨23, _⟩ => ⟨S_, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256x1, .f32⟩
  | .hbm, ⟨29, _⟩ => ⟨S128x256x576, .f32⟩
  | .hbm, ⟨30, _⟩ => ⟨S128x256x576, .f32⟩
  | .hbm, ⟨31, _⟩ => ⟨S128x256x576, .f32⟩
  | .hbm, ⟨32, _⟩ => ⟨S_, .f32⟩
  | .hbm, ⟨33, _⟩ => ⟨S128x256, .f32⟩
  | .hbm, ⟨34, _⟩ => ⟨S128x256x1, .f32⟩
  | .hbm, ⟨35, _⟩ => ⟨S128x256x576, .f32⟩
  | .hbm, ⟨36, _⟩ => ⟨S128x256x576, .f32⟩
  | .hbm, ⟨37, _⟩ => ⟨S128x256x1024, .f32⟩
  | .hbm, ⟨38, _⟩ => ⟨S128x256x576, .f32⟩
  | .hbm, ⟨39, _⟩ => ⟨S_, .f32⟩
  | .hbm, ⟨40, _⟩ => ⟨S128x256x576, .f32⟩
  | .hbm, ⟨41, _⟩ => ⟨S128x256x576, .f32⟩
  | .hbm, ⟨42, _⟩ => ⟨S128x256x576, .f32⟩
  | .hbm, ⟨43, _⟩ => ⟨S_, .f32⟩
  | .hbm, ⟨44, _⟩ => ⟨S128x256, .f32⟩
  | .hbm, ⟨45, _⟩ => ⟨S128x256x1, .f32⟩
  | .hbm, ⟨46, _⟩ => ⟨S_, .f32⟩
  | .hbm, ⟨47, _⟩ => ⟨S128x256x1, .f32⟩
  | .hbm, ⟨48, _⟩ => ⟨S128x256x1, .f32⟩
  | .hbm, ⟨49, _⟩ => ⟨S128x256x576, .f32⟩
  | .hbm, ⟨50, _⟩ => ⟨S128x256x576, .f32⟩
  | .hbm, ⟨51, _⟩ => ⟨S128x576x256, .f32⟩
  | .hbm, ⟨52, _⟩ => ⟨S_, .f32⟩
  | .hbm, ⟨53, _⟩ => ⟨S128x576x256, .f32⟩
  | .hbm, ⟨54, _⟩ => ⟨S128x576x256, .f32⟩
  | .hbm, ⟨55, _⟩ => ⟨S_, .f32⟩
  | .hbm, ⟨56, _⟩ => ⟨S128x576, .f32⟩
  | .hbm, ⟨57, _⟩ => ⟨S_, .f32⟩
  | .hbm, ⟨58, _⟩ => ⟨S128x576, .f32⟩
  | .hbm, ⟨59, _⟩ => ⟨S128x576, .f32⟩
  | .hbm, ⟨60, _⟩ => ⟨S128x576x1, .f32⟩
  | .hbm, ⟨61, _⟩ => ⟨S128x576x256, .f32⟩
  | .hbm, ⟨62, _⟩ => ⟨S128x576x256, .f32⟩
  | .hbm, ⟨63, _⟩ => ⟨S128x576x256, .f32⟩
  | .hbm, ⟨64, _⟩ => ⟨S_, .f32⟩
  | .hbm, ⟨65, _⟩ => ⟨S128x576, .f32⟩
  | .hbm, ⟨66, _⟩ => ⟨S128x576x1, .f32⟩
  | .hbm, ⟨67, _⟩ => ⟨S128x576x256, .f32⟩
  | .hbm, ⟨68, _⟩ => ⟨S128x576x256, .f32⟩
  | .hbm, ⟨69, _⟩ => ⟨S128x576x1024, .f32⟩
  | .hbm, ⟨70, _⟩ => ⟨S128x256x1024, .f32⟩
  | .hbm, ⟨71, _⟩ => ⟨S1x1x1024, .f32⟩
  | .hbm, ⟨72, _⟩ => ⟨S128x256x1024, .f32⟩
  | .hbm, ⟨73, _⟩ => ⟨S128x256x1024, .f32⟩
  | .hbm, ⟨74, _⟩ => ⟨S_, .f32⟩
  | .hbm, ⟨75, _⟩ => ⟨S128x256x1024, .f32⟩
  | .hbm, ⟨76, _⟩ => ⟨S128x256x1024, .f32⟩
  | .hbm, ⟨77, _⟩ => ⟨S128x576x1024, .f32⟩
  | .hbm, ⟨78, _⟩ => ⟨S1x1x1024, .f32⟩
  | .hbm, ⟨79, _⟩ => ⟨S128x576x1024, .f32⟩
  | .hbm, ⟨80, _⟩ => ⟨S128x576x1024, .f32⟩
  | .hbm, ⟨81, _⟩ => ⟨S_, .f32⟩
  | .hbm, ⟨82, _⟩ => ⟨S128x576x1024, .f32⟩
  | .hbm, ⟨83, _⟩ => ⟨S128x576x1024, .f32⟩
  | _, _ => ⟨S128x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call1_cst : Ref sig .tc := ⟨.hbm, 39, rfl⟩
abbrev main_call1_v0 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call2_cst : Ref sig .tc := ⟨.hbm, 74, rfl⟩
abbrev main_call2_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call3_cst : Ref sig .tc := ⟨.hbm, 81, rfl⟩
abbrev main_call3_v0 : Ref sig .tc := ⟨.hbm, 82, rfl⟩
abbrev main_v57 : Ref sig .tc := ⟨.hbm, 83, rfl⟩

abbrev nD : Nat := 1
abbrev τ : Topo := Topo.v7x

variable {F : FTy → Type} [FloatOps F]

class Facts₀ : Prop where
  bcast_S_S128x576x256 : S_.BroadcastsInDim S128x576x256 (![] : Fin 0 → Fin S128x576x256.rank)
  reducesTo_S128x576x256_S128x576_d2 : S128x576x256.ReducesTo [2] S128x576
  h_S_ : 0 < S_.numel
  bcast_S128x576_S128x576x1_0_1 : S128x576.BroadcastsInDim S128x576x1 (![0, 1] : Fin 2 → Fin S128x576x1.rank)
  bcast_S_S128x576x1 : S_.BroadcastsInDim S128x576x1 (![] : Fin 0 → Fin S128x576x1.rank)
  bcast_S128x576x1_S128x576x256_0_1_2 : S128x576x1.BroadcastsInDim S128x576x256 (![0, 1, 2] : Fin 3 → Fin S128x576x256.rank)
  transposes_S128x576x256_S128x256x576_0_2_1 : S128x576x256.Transposes [0, 2, 1] S128x256x576
  bcast_S_S128x256x576 : S_.BroadcastsInDim S128x256x576 (![] : Fin 0 → Fin S128x256x576.rank)
  reducesTo_S128x256x576_S128x256_d2 : S128x256x576.ReducesTo [2] S128x256
  bcast_S_S128x256 : S_.BroadcastsInDim S128x256 (![] : Fin 0 → Fin S128x256.rank)
  bcast_S128x256_S128x256x1_0_1 : S128x256.BroadcastsInDim S128x256x1 (![0, 1] : Fin 2 → Fin S128x256x1.rank)
  bcast_S128x256x1_S128x256x576_0_1_2 : S128x256x1.BroadcastsInDim S128x256x576 (![0, 1, 2] : Fin 3 → Fin S128x256x576.rank)
  bcast_S_S128x256x1 : S_.BroadcastsInDim S128x256x1 (![] : Fin 0 → Fin S128x256x1.rank)
  transposes_S128x256x576_S128x576x256_0_2_1 : S128x256x576.Transposes [0, 2, 1] S128x576x256
  bcast_S_S128x576 : S_.BroadcastsInDim S128x576 (![] : Fin 0 → Fin S128x576.rank)
  bcast_S1024_S1x1x1024_2 : S1024.BroadcastsInDim S1x1x1024 (![2] : Fin 1 → Fin S1x1x1024.rank)
  bcast_S1x1x1024_S128x256x1024_0_1_2 : S1x1x1024.BroadcastsInDim S128x256x1024 (![0, 1, 2] : Fin 3 → Fin S128x256x1024.rank)
  bcast_S_S128x256x1024 : S_.BroadcastsInDim S128x256x1024 (![] : Fin 0 → Fin S128x256x1024.rank)
  bcast_S1x1x1024_S128x576x1024_0_1_2 : S1x1x1024.BroadcastsInDim S128x576x1024 (![0, 1, 2] : Fin 3 → Fin S128x576x1024.rank)
  bcast_S_S128x576x1024 : S_.BroadcastsInDim S128x576x1024 (![] : Fin 0 → Fin S128x576x1024.rank)
  dot_S128x576x1024_S128x256x1024_S128x576x256_2_2_1_1_0_0_wf : DotDims.WF S128x576x1024 S128x256x1024 S128x576x256 [2] [2] [1] [1] [0] [0]
  dot_S128x256x576_S128x576x1024_S128x256x1024_2_1_1_2_0_0_wf : DotDims.WF S128x256x576 S128x576x1024 S128x256x1024 [2] [1] [1] [2] [0] [0]
  dot_S128x256x1024_S128x576x1024_S128x256x576_2_2_1_1_0_0_wf : DotDims.WF S128x256x1024 S128x576x1024 S128x256x576 [2] [2] [1] [1] [0] [0]
  dot_S128x576x256_S128x256x1024_S128x576x1024_2_1_1_2_0_0_wf : DotDims.WF S128x576x256 S128x256x1024 S128x576x1024 [2] [1] [1] [2] [0] [0]
  dot_S128x256x1024_S1024x1024_S128x256x1024_2_1_01_0_n_n_wf : DotDims.WF S128x256x1024 S1024x1024 S128x256x1024 [2] [1] [0, 1] [0] [] []
  dot_S128x576x1024_S1024x1024_S128x576x1024_2_1_01_0_n_n_wf : DotDims.WF S128x576x1024 S1024x1024 S128x576x1024 [2] [1] [0, 1] [0] [] []

variable [Facts₀]

def dot_S128x576x1024_S128x256x1024_S128x576x256_2_2_1_1_0_0 : DotDims S128x576x1024 S128x256x1024 S128x576x256 where
  lhsContracting := [2]
  rhsContracting := [2]
  lhsNonContracting := [1]
  rhsNonContracting := [1]
  lhsBatch := [0]
  rhsBatch := [0]
  wf := dot_S128x576x1024_S128x256x1024_S128x576x256_2_2_1_1_0_0_wf
def dot_S128x256x576_S128x576x1024_S128x256x1024_2_1_1_2_0_0 : DotDims S128x256x576 S128x576x1024 S128x256x1024 where
  lhsContracting := [2]
  rhsContracting := [1]
  lhsNonContracting := [1]
  rhsNonContracting := [2]
  lhsBatch := [0]
  rhsBatch := [0]
  wf := dot_S128x256x576_S128x576x1024_S128x256x1024_2_1_1_2_0_0_wf
def dot_S128x256x1024_S128x576x1024_S128x256x576_2_2_1_1_0_0 : DotDims S128x256x1024 S128x576x1024 S128x256x576 where
  lhsContracting := [2]
  rhsContracting := [2]
  lhsNonContracting := [1]
  rhsNonContracting := [1]
  lhsBatch := [0]
  rhsBatch := [0]
  wf := dot_S128x256x1024_S128x576x1024_S128x256x576_2_2_1_1_0_0_wf
def dot_S128x576x256_S128x256x1024_S128x576x1024_2_1_1_2_0_0 : DotDims S128x576x256 S128x256x1024 S128x576x1024 where
  lhsContracting := [2]
  rhsContracting := [1]
  lhsNonContracting := [1]
  rhsNonContracting := [2]
  lhsBatch := [0]
  rhsBatch := [0]
  wf := dot_S128x576x256_S128x256x1024_S128x576x1024_2_1_1_2_0_0_wf
def dot_S128x256x1024_S1024x1024_S128x256x1024_2_1_01_0_n_n : DotDims S128x256x1024 S1024x1024 S128x256x1024 where
  lhsContracting := [2]
  rhsContracting := [1]
  lhsNonContracting := [0, 1]
  rhsNonContracting := [0]
  lhsBatch := []
  rhsBatch := []
  wf := dot_S128x256x1024_S1024x1024_S128x256x1024_2_1_01_0_n_n_wf
def dot_S128x576x1024_S1024x1024_S128x576x1024_2_1_01_0_n_n : DotDims S128x576x1024 S1024x1024 S128x576x1024 where
  lhsContracting := [2]
  rhsContracting := [1]
  lhsNonContracting := [0, 1]
  rhsNonContracting := [0]
  lhsBatch := []
  rhsBatch := []
  wf := dot_S128x576x1024_S1024x1024_S128x576x1024_2_1_01_0_n_n_wf

class Facts : Prop extends Facts₀ where

variable [Facts]
-- ==== Proof.Attention.lean ====
/-
  One direction of a cross-attention layer as functions over finite index sets, on the extended reals.
  Queries `x : Q → H → EReal` attend over a context `y : C → H → EReal`:
    * the clipped score of query `q` and context row `c` is `max (∑ h, x q h * y c h) 0`;
    * each context column of the scores is divided by its L1 norm over the queries plus `eps`, and scaled;
    * each query's row is put through a softmax (the row maximum subtracted before the exponential);
    * the attended context of `q` is the attention-weighted sum of the context rows;
    * a dense layer `X · Wᵀ + b` clipped at zero follows.
  `Ideal.div` and `Ideal.exp` are the extended reals' quotient and exponential; the constants `eps`, `scale`
  and `ninf` (the fold's start, minus infinity in the programs) are parameters and are never evaluated.
  The two laws proved here are the only ones the two programs' spellings differ by: a maximum taken once
  more against the fold's own start changes nothing, and a sum of products may be written with the factors
  in either order.
-/
import Mathlib
import Idealize.ShloMosaic.PureOps.Ideal

noncomputable section

open scoped BigOperators

namespace Cert.Attention

open Idealize.ShloMosaic

variable {Q C H O : Type} [Fintype Q] [Fintype C] [Fintype H] [Fintype O]

/-- The clipped score of every query against every context row. -/
def score (x : Q → H → EReal) (y : C → H → EReal) : Q → C → EReal :=
  fun q c => max (∑ h, x q h * y c h) 0

/-- Each context column divided by its L1 norm over the queries plus `eps`, then scaled. -/
def normalize (eps scale : EReal) (S : Q → C → EReal) : Q → C → EReal :=
  fun q c => Ideal.div (S q c) ((∑ q', max (S q' c) (-(S q' c))) + eps) * scale

/-- The maximum of a query's row, folded from `ninf`. -/
def rowMax (ninf : EReal) (N : Q → C → EReal) (q : Q) : EReal :=
  (Finset.univ : Finset C).fold max ninf (N q)

/-- The softmax of every query's row. -/
def softmax (ninf : EReal) (N : Q → C → EReal) : Q → C → EReal :=
  fun q c => Ideal.div (Ideal.exp (N q c - rowMax ninf N q)) (∑ c', Ideal.exp (N q c' - rowMax ninf N q))

/-- The attention weights of the queries `x` over the context `y`. -/
def weights (eps scale ninf : EReal) (x : Q → H → EReal) (y : C → H → EReal) : Q → C → EReal :=
  softmax ninf (normalize eps scale (score x y))

/-- The attention-weighted sum of the context rows. -/
def attend (A : Q → C → EReal) (y : C → H → EReal) : Q → H → EReal :=
  fun q h => ∑ c, A q c * y c h

/-- A dense layer with the weight matrix contracted on its second axis, a bias row added, clipped at zero. -/
def dense (X : Q → H → EReal) (W : O → H → EReal) (b : O → EReal) : Q → O → EReal :=
  fun q o => max ((∑ h, X q h * W o h) + b o) 0

/-- The layer's output rows. -/
def output (eps scale ninf : EReal) (x : Q → H → EReal) (y : C → H → EReal) (W : O → H → EReal) (b : O → EReal) :
    Q → O → EReal :=
  dense (attend (weights eps scale ninf x y) y) W b

/-- A fold of `max` is at least its start, so one more maximum against the start changes nothing. -/
theorem max_start_fold {ι : Type} (s : Finset ι) (b : EReal) (f : ι → EReal) :
    max b (s.fold max b f) = s.fold max b f :=
  max_eq_right (Finset.le_fold_max (s := s) (f := f) (b := b) b |>.mpr (Or.inl le_rfl))

/-- The score with the two factors of every product exchanged. -/
theorem score_comm (x : Q → H → EReal) (y : C → H → EReal) (q : Q) (c : C) :
    max (∑ h, y c h * x q h) 0 = score x y q c := by
  unfold score
  exact congrArg (max · 0) (Finset.sum_congr rfl fun h _ => mul_comm _ _)

end Cert.Attention

end
-- ==== Proof.KernelTxt.lean ====
/-
  The kernel's body for the direction in which the 256 text rows attend over the 576 image rows, read at an
  entry. The body works on one batch element: a text block `[1, 256, 1024]` and an image block `[1, 576, 1024]`.
  Its attention weights are built in three layers, each a vector operation on a `[1, 256, 576]` block:
    * `scoreV`: the product of the two blocks contracted over the 1024 features, clipped at zero;
    * `normV`: each image column divided by (its sum of absolute values over the 256 text rows, plus a
      constant), times a constant;
    * `softmaxV`: each text row's maximum subtracted, the exponential taken, divided by the row's sum.
  Each layer at entry `(0, q, c)` is the corresponding function of `Cert.Attention` of the block's rows.
  A change of float format is the identity on the extended reals.
-/
import proofs.«110716_j39582418600215_2_alg».proof.Proof.Gen.KernelIdeal.Skeleton
import proofs.«110716_j39582418600215_2_alg».proof.Proof.Attention
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelTxt

open Idealize.ShloMosaic Idealize.ShloMosaic.ValueIdx Cert.KernelIdeal Cert.KernelIdeal.Gen
open Cert.Attention

/-- The rows of a one-batch block `[1, n, k]`. -/
def rows {n k : Nat} (v : (⟨3, ![1, n, k]⟩ : Shape).Idx → EReal) : Fin n → Fin k → EReal := fun a b => v (ix3 0 a b)

/-- The constant added to a column's L1 norm. -/
abbrev eps : EReal := Ideal.ofBits .f32 0x322BCC77#32
/-- The factor the normalised scores are multiplied by. -/
abbrev scale : EReal := Ideal.ofBits .f32 0x41100000#32
/-- The start of the row maximum's fold. -/
abbrev ninf : EReal := Ideal.ofBits .f32 0xFF800000#32

/-! ## The score product -/

abbrev dScore := dot_S1x256x1024_S1x576x1024_S1x256x576_2_2_1_1_0_0

/-- The text operand of the score at entry `(0, q, c)` and feature `k` is read at `(0, q, k)`. -/
theorem dScore_lhs (q : Fin 256) (c : Fin 576) (k : Fin 1024) :
    dScore.lhsIdx (ix3 0 q c) ((contrEquiv1 dScore 1024 rfl rfl).symm k) = ix3 0 q k := by
  funext a; refine Fin.ext ?_
  match a with
  | ⟨0, _⟩ => rfl
  | ⟨1, _⟩ => rfl
  | ⟨2, _⟩ => exact (dScore.lhsIdx_val_of_single rfl _ _).trans (contrEquiv1_symm_val dScore 1024 rfl rfl k)

/-- The image operand of the score at entry `(0, q, c)` and feature `k` is read at `(0, c, k)`. -/
theorem dScore_rhs (q : Fin 256) (c : Fin 576) (k : Fin 1024) :
    dScore.rhsIdx (ix3 0 q c) ((contrEquiv1 dScore 1024 rfl rfl).symm k) = ix3 0 c k := by
  funext a; refine Fin.ext ?_
  match a with
  | ⟨0, _⟩ => rfl
  | ⟨1, _⟩ => rfl
  | ⟨2, _⟩ => exact (dScore.rhsIdx_val_of_single rfl _ _).trans (contrEquiv1_symm_val dScore 1024 rfl rfl k)

/-- The clipped score block. -/
def scoreV (v2 : FVec Ideal S1x256x1024 .bf16) (v3 : FVec Ideal S1x576x1024 .bf16) : FVec Ideal S1x256x576 .f32 :=
  maximumf (matmul dScore none v2 v3 (constant (F := Ideal) S1x256x576 .f32 0x00000000#32))
    (broadcast S1x256x576 (Scalar.ofBits (F := Ideal) .f32 0x00000000#32))

theorem scoreV_read (v2 : FVec Ideal S1x256x1024 .bf16) (v3 : FVec Ideal S1x576x1024 .bf16) (q : Fin 256) (c : Fin 576) :
    scoreV v2 v3 (ix3 0 q c) = score (rows v2) (rows v3) q c := by
  show max (FloatOps.matmul dScore none v2 v3 (constant (F := Ideal) S1x256x576 .f32 0x00000000#32) (ix3 0 q c))
      (Ideal.ofBits .f32 0x00000000#32) = max (∑ h : Fin 1024, v2 (ix3 0 q h) * v3 (ix3 0 c h)) 0
  rw [Ideal.matmul_constant_zero_apply, Ideal.ofBits_zero_f32, ← Equiv.sum_comp (contrEquiv1 dScore 1024 rfl rfl).symm]
  refine congrArg (max · 0) (Finset.sum_congr rfl fun k _ => ?_)
  rw [dScore_lhs, dScore_rhs]

/-! ## Column sums and row reductions, kept as unit axes and spread back over the block -/

/-- A vector of per-column values `[1, 576]`, recast as `[1, 1, 576]` with a constant added and spread down the 256
    rows, read at `(0, q, c)`: the column's value plus the constant. -/
theorem colSpread_read (u : FVec Ideal S1x576 .f32) (e : EReal) (q : Fin 256) (c : Fin 576) :
    broadcastTo S1x256x576 (addf (shapeCast S1x1x576 u shapeCasts_S1x576_S1x1x576) (broadcast S1x1x576 e))
      broadcasts_S1x1x576_S1x256x576 (ix3 0 q c) = u (ix2 0 c) + e := by
  refine (broadcastTo_apply _ _ (ix3 0 q c) (ix3 0 0 c) (fun a => match a with
    | ⟨0, _⟩ => by show (0 : Nat) = (if (1 : Nat) = 1 then 0 else (0 : Nat)); rw [if_pos rfl]
    | ⟨1, _⟩ => by show (0 : Nat) = (if (1 : Nat) = 1 then 0 else q.val); rw [if_pos rfl]
    | ⟨2, _⟩ => by show c.val = (if (576 : Nat) = 1 then 0 else c.val); rw [if_neg (by decide)])).trans ?_
  show shapeCast S1x1x576 u shapeCasts_S1x576_S1x1x576 (ix3 0 0 c) + e = u (ix2 0 c) + e
  refine congrArg (· + e) ?_
  exact shapeCast_apply _ _ (ix3 0 0 c) (ix2 0 c) (by
    rw [Shape.rowMajor_val_two, Shape.rowMajor_val_three]
    show 0 * 576 + c.val = (0 * 1 + 0) * 576 + c.val
    omega)

/-- The sum of a block over its 256 rows, at column `c`. -/
theorem colSum_read (w : FVec Ideal S1x256x576 .f32) (c : Fin 576) :
    multiReduction .add [1] S1x576 w 0x00000000#32 reduces_S1x256x576_S1x576 (.inl rfl) rfl (ix2 0 c)
      = ∑ q' : Fin 256, w (ix3 0 q' c) := by
  refine (Ideal.multiReduction_add_single w 0x00000000#32 reduces_S1x256x576_S1x576 (.inl rfl) rfl (ix2 0 c)).trans ?_
  show (∑ k : Fin 256, w (reduces_S1x256x576_S1x576.lift (ix2 0 c) k)) = ∑ q' : Fin 256, w (ix3 0 q' c)
  refine Finset.sum_congr rfl fun k _ => congrArg w (funext fun a => Fin.ext ?_)
  match a with
  | ⟨0, _⟩ => rfl
  | ⟨1, _⟩ => rfl
  | ⟨2, _⟩ => rfl

/-- A vector of per-row values `[1, 256]`, recast as `[1, 256, 1]` and spread across the 576 columns, read at
    `(0, q, c)`: the row's value. -/
theorem rowSpread_read (u : FVec Ideal S1x256 .f32) (q : Fin 256) (c : Fin 576) :
    broadcastTo S1x256x576 (shapeCast S1x256x1 u shapeCasts_S1x256_S1x256x1) broadcasts_S1x256x1_S1x256x576 (ix3 0 q c)
      = u (ix2 0 q) := by
  refine (broadcastTo_apply _ _ (ix3 0 q c) (ix3 0 q 0) (fun a => match a with
    | ⟨0, _⟩ => by show (0 : Nat) = (if (1 : Nat) = 1 then 0 else (0 : Nat)); rw [if_pos rfl]
    | ⟨1, _⟩ => by show q.val = (if (256 : Nat) = 1 then 0 else q.val); rw [if_neg (by decide)]
    | ⟨2, _⟩ => by show (0 : Nat) = (if (1 : Nat) = 1 then 0 else c.val); rw [if_pos rfl])).trans ?_
  exact shapeCast_apply _ _ (ix3 0 q 0) (ix2 0 q) (by
    rw [Shape.rowMajor_val_two, Shape.rowMajor_val_three]
    show 0 * 256 + q.val = (0 * 256 + q.val) * 1 + 0
    omega)

/-- The sum of a block over its 576 columns, at row `q`. -/
theorem rowSum_read (w : FVec Ideal S1x256x576 .f32) (q : Fin 256) :
    multiReduction .add [2] S1x256 w 0x00000000#32 reduces_S1x256x576_S1x256 (.inl rfl) rfl (ix2 0 q)
      = ∑ c' : Fin 576, w (ix3 0 q c') := by
  refine (Ideal.multiReduction_add_single w 0x00000000#32 reduces_S1x256x576_S1x256 (.inl rfl) rfl (ix2 0 q)).trans ?_
  show (∑ k : Fin 576, w (reduces_S1x256x576_S1x256.lift (ix2 0 q) k)) = ∑ c' : Fin 576, w (ix3 0 q c')
  refine Finset.sum_congr rfl fun k _ => congrArg w (funext fun a => Fin.ext ?_)
  match a with
  | ⟨0, _⟩ => rfl
  | ⟨1, _⟩ => rfl
  | ⟨2, _⟩ => rfl

/-- The maximum of a block over its 576 columns, at row `q`: the fold of `max` from the start value. -/
theorem rowMax_read (w : FVec Ideal S1x256x576 .f32) (q : Fin 256) :
    multiReduction .maximumf [2] S1x256 w 0xFF800000#32 reduces_S1x256x576_S1x256 (.inl rfl) rfl (ix2 0 q)
      = rowMax ninf (rows w) q := by
  refine (Ideal.multiReduction_maximumf_single w 0xFF800000#32 reduces_S1x256x576_S1x256 (.inl rfl) rfl (ix2 0 q)).trans ?_
  show (Finset.univ : Finset (Fin 576)).fold max ninf (w ∘ reduces_S1x256x576_S1x256.lift (ix2 0 q))
    = (Finset.univ : Finset (Fin 576)).fold max ninf (fun c' => w (ix3 0 q c'))
  refine congrArg (fun f => (Finset.univ : Finset (Fin 576)).fold max ninf f) (funext fun k => congrArg w (funext fun a => Fin.ext ?_))
  match a with
  | ⟨0, _⟩ => rfl
  | ⟨1, _⟩ => rfl
  | ⟨2, _⟩ => rfl

/-! ## The normalisation and the softmax -/

/-- The scores divided column by column by (the column's L1 norm plus a constant), times a constant. -/
def normV (v6 : FVec Ideal S1x256x576 .f32) : FVec Ideal S1x256x576 .f32 :=
  mulf (divf v6 (broadcastTo S1x256x576 (addf (shapeCast S1x1x576
      (multiReduction .add [1] S1x576 (absf v6) 0x00000000#32 reduces_S1x256x576_S1x576 (.inl rfl) rfl)
      shapeCasts_S1x576_S1x1x576) (broadcast S1x1x576 (Scalar.ofBits (F := Ideal) .f32 0x322BCC77#32)))
      broadcasts_S1x1x576_S1x256x576))
    (broadcast S1x256x576 (Scalar.ofBits (F := Ideal) .f32 0x41100000#32))

theorem normV_read (v6 : FVec Ideal S1x256x576 .f32) (q : Fin 256) (c : Fin 576) :
    normV v6 (ix3 0 q c) = normalize eps scale (rows v6) q c := by
  show Ideal.div (v6 (ix3 0 q c)) (broadcastTo S1x256x576 (addf (shapeCast S1x1x576
      (multiReduction .add [1] S1x576 (absf v6) 0x00000000#32 reduces_S1x256x576_S1x576 (.inl rfl) rfl)
      shapeCasts_S1x576_S1x1x576) (broadcast S1x1x576 eps)) broadcasts_S1x1x576_S1x256x576 (ix3 0 q c)) * scale
    = Ideal.div (v6 (ix3 0 q c)) ((∑ q' : Fin 256, max (v6 (ix3 0 q' c)) (-(v6 (ix3 0 q' c)))) + eps) * scale
  rw [colSpread_read, colSum_read]
  rfl

/-- The row maximum subtracted from every entry. -/
def shiftV (v15 : FVec Ideal S1x256x576 .f32) : FVec Ideal S1x256x576 .f32 :=
  subf v15 (broadcastTo S1x256x576 (shapeCast S1x256x1
    (multiReduction .maximumf [2] S1x256 v15 0xFF800000#32 reduces_S1x256x576_S1x256 (.inl rfl) rfl)
    shapeCasts_S1x256_S1x256x1) broadcasts_S1x256x1_S1x256x576)

theorem shiftV_read (v15 : FVec Ideal S1x256x576 .f32) (q : Fin 256) (c : Fin 576) :
    shiftV v15 (ix3 0 q c) = v15 (ix3 0 q c) - rowMax ninf (rows v15) q := by
  show v15 (ix3 0 q c) - broadcastTo S1x256x576 (shapeCast S1x256x1
    (multiReduction .maximumf [2] S1x256 v15 0xFF800000#32 reduces_S1x256x576_S1x256 (.inl rfl) rfl)
    shapeCasts_S1x256_S1x256x1) broadcasts_S1x256x1_S1x256x576 (ix3 0 q c) = _
  rw [rowSpread_read, rowMax_read]

/-- The exponentials divided row by row by their sum. -/
def softmaxV (v15 : FVec Ideal S1x256x576 .f32) : FVec Ideal S1x256x576 .f32 :=
  divf (exp (shiftV v15)) (broadcastTo S1x256x576 (shapeCast S1x256x1
    (multiReduction .add [2] S1x256 (exp (shiftV v15)) 0x00000000#32 reduces_S1x256x576_S1x256 (.inl rfl) rfl)
    shapeCasts_S1x256_S1x256x1) broadcasts_S1x256x1_S1x256x576)

theorem softmaxV_read (v15 : FVec Ideal S1x256x576 .f32) (q : Fin 256) (c : Fin 576) :
    softmaxV v15 (ix3 0 q c) = softmax ninf (rows v15) q c := by
  show Ideal.div (Ideal.exp (shiftV v15 (ix3 0 q c))) (broadcastTo S1x256x576 (shapeCast S1x256x1
    (multiReduction .add [2] S1x256 (exp (shiftV v15)) 0x00000000#32 reduces_S1x256x576_S1x256 (.inl rfl) rfl)
    shapeCasts_S1x256_S1x256x1) broadcasts_S1x256x1_S1x256x576 (ix3 0 q c)) = _
  rw [rowSpread_read, rowSum_read, shiftV_read]
  show _ = Ideal.div (Ideal.exp (v15 (ix3 0 q c) - rowMax ninf (rows v15) q))
    (∑ c' : Fin 576, Ideal.exp (v15 (ix3 0 q c') - rowMax ninf (rows v15) q))
  refine congrArg (Ideal.div _) (Finset.sum_congr rfl fun c' _ => ?_)
  show Ideal.exp (shiftV v15 (ix3 0 q c')) = _
  rw [shiftV_read]

/-- The attention weights the body stores: the three layers composed. -/
theorem pay4_eq (v0 : Vec Ideal S1x256x1024 .f32) (v1 : Vec Ideal S1x576x1024 .f32) :
    k0_pay4 (F := Ideal) v0 v1 = softmaxV (normV (scoreV (truncf .bf16 v0 bitsLt_bf16_f32) (truncf .bf16 v1 bitsLt_bf16_f32))) := rfl

/-- The stored weights at entry `(0, q, c)`: the attention weights of the text block's rows over the image block's. -/
theorem pay4_read (v0 : Vec Ideal S1x256x1024 .f32) (v1 : Vec Ideal S1x576x1024 .f32) (q : Fin 256) (c : Fin 576) :
    k0_pay4 (F := Ideal) v0 v1 (ix3 0 q c) = weights eps scale ninf (rows v0) (rows v1) q c := by
  rw [pay4_eq, softmaxV_read]
  unfold weights
  refine congrFun (congrFun (congrArg (softmax ninf) ?_) q) c
  funext q' c'
  show normV _ (ix3 0 q' c') = _
  rw [normV_read]
  refine congrFun (congrFun (congrArg (normalize eps scale) ?_) q') c'
  funext q'' c''
  show scoreV _ _ (ix3 0 q'' c'') = _
  rw [scoreV_read]
  rfl

/-! ## The attended context and the dense layer -/

abbrev dCtx := dot_S1x256x576_S1x576x1024_S1x256x1024_2_1_1_2_0_0

/-- The weights operand of the attended context at entry `(0, q, h)` and image row `k` is read at `(0, q, k)`. -/
theorem dCtx_lhs (q : Fin 256) (h : Fin 1024) (k : Fin 576) :
    dCtx.lhsIdx (ix3 0 q h) ((contrEquiv1 dCtx 576 rfl rfl).symm k) = ix3 0 q k := by
  funext a; refine Fin.ext ?_
  match a with
  | ⟨0, _⟩ => rfl
  | ⟨1, _⟩ => rfl
  | ⟨2, _⟩ => exact (dCtx.lhsIdx_val_of_single rfl _ _).trans (contrEquiv1_symm_val dCtx 576 rfl rfl k)

/-- The image operand of the attended context at entry `(0, q, h)` and image row `k` is read at `(0, k, h)`. -/
theorem dCtx_rhs (q : Fin 256) (h : Fin 1024) (k : Fin 576) :
    dCtx.rhsIdx (ix3 0 q h) ((contrEquiv1 dCtx 576 rfl rfl).symm k) = ix3 0 k h := by
  funext a; refine Fin.ext ?_
  match a with
  | ⟨0, _⟩ => rfl
  | ⟨1, _⟩ => exact (dCtx.rhsIdx_val_of_single rfl _ _).trans (contrEquiv1_symm_val dCtx 576 rfl rfl k)
  | ⟨2, _⟩ => rfl

/-- The attention-weighted sum of the image rows. -/
def attendV (A : FVec Ideal S1x256x576 .f32) (v3 : FVec Ideal S1x576x1024 .bf16) : FVec Ideal S1x256x1024 .f32 :=
  matmul dCtx none (truncf .bf16 A bitsLt_bf16_f32) v3 (constant (F := Ideal) S1x256x1024 .f32 0x00000000#32)

theorem attendV_read (A : FVec Ideal S1x256x576 .f32) (v3 : FVec Ideal S1x576x1024 .bf16) (q : Fin 256) (h : Fin 1024) :
    attendV A v3 (ix3 0 q h) = attend (rows A) (rows v3) q h := by
  show FloatOps.matmul dCtx none (truncf .bf16 A bitsLt_bf16_f32) v3 (constant (F := Ideal) S1x256x1024 .f32 0x00000000#32) (ix3 0 q h)
    = ∑ c : Fin 576, A (ix3 0 q c) * v3 (ix3 0 c h)
  rw [Ideal.matmul_constant_zero_apply, ← Equiv.sum_comp (contrEquiv1 dCtx 576 rfl rfl).symm]
  refine Finset.sum_congr rfl fun k _ => ?_
  rw [dCtx_lhs, dCtx_rhs]
  rfl

abbrev dFc := dot_S256x1024_S1024x1024_S256x1024_1_1_0_0_n_n

/-- The row operand of the dense product at entry `(q, o)` and feature `k` is read at `(q, k)`. -/
theorem dFc_lhs (q : Fin 256) (o : Fin 1024) (k : Fin 1024) :
    dFc.lhsIdx (ix2 q o) ((contrEquiv1 dFc 1024 rfl rfl).symm k) = ix2 q k := by
  funext a; refine Fin.ext ?_
  match a with
  | ⟨0, _⟩ => rfl
  | ⟨1, _⟩ => exact (dFc.lhsIdx_val_of_single rfl _ _).trans (contrEquiv1_symm_val dFc 1024 rfl rfl k)

/-- The weight operand of the dense product at entry `(q, o)` and feature `k` is read at `(o, k)`. -/
theorem dFc_rhs (q : Fin 256) (o : Fin 1024) (k : Fin 1024) :
    dFc.rhsIdx (ix2 q o) ((contrEquiv1 dFc 1024 rfl rfl).symm k) = ix2 o k := by
  funext a; refine Fin.ext ?_
  match a with
  | ⟨0, _⟩ => rfl
  | ⟨1, _⟩ => exact (dFc.rhsIdx_val_of_single rfl _ _).trans (contrEquiv1_symm_val dFc 1024 rfl rfl k)

/-- The rows of the block, as a matrix, times the weight matrix contracted on its second axis, as a block again. -/
def denseV (X : FVec Ideal S1x256x1024 .f32) (v30 : FVec Ideal S1024x1024 .bf16) : FVec Ideal S1x256x1024 .f32 :=
  shapeCast S1x256x1024 (matmul dFc none
    (shapeCast S256x1024 (truncf .bf16 X bitsLt_bf16_f32) shapeCasts_S1x256x1024_S256x1024)
    (shapeCast S1024x1024 v30 shapeCasts_S1024x1024_S1024x1024)
    (constant (F := Ideal) S256x1024 .f32 0x00000000#32)) shapeCasts_S256x1024_S1x256x1024

theorem denseV_read (X : FVec Ideal S1x256x1024 .f32) (v30 : FVec Ideal S1024x1024 .bf16) (q : Fin 256) (o : Fin 1024) :
    denseV X v30 (ix3 0 q o) = ∑ h : Fin 1024, X (ix3 0 q h) * v30 (ix2 o h) := by
  refine (shapeCast_ab_1ab_apply _ shapeCasts_S256x1024_S1x256x1024 0 q o).trans ?_
  show FloatOps.matmul dFc none (shapeCast S256x1024 (truncf .bf16 X bitsLt_bf16_f32) shapeCasts_S1x256x1024_S256x1024)
    (shapeCast S1024x1024 v30 shapeCasts_S1024x1024_S1024x1024) (constant (F := Ideal) S256x1024 .f32 0x00000000#32) (ix2 q o) = _
  rw [Ideal.matmul_constant_zero_apply, ← Equiv.sum_comp (contrEquiv1 dFc 1024 rfl rfl).symm]
  refine Finset.sum_congr rfl fun k _ => ?_
  rw [dFc_lhs, dFc_rhs, shapeCast_self]
  refine congrArg (· * v30 (ix2 o k)) ?_
  exact shapeCast_1ab_ab_apply (truncf .bf16 X bitsLt_bf16_f32) shapeCasts_S1x256x1024_S256x1024 q k

/-- The dense product the body computes: the two layers over the stored weights. -/
theorem pay5_eq (v0 : Vec Ideal S1x256x1024 .f32) (v1 : Vec Ideal S1x576x1024 .f32) (v30 : Vec Ideal S1024x1024 .bf16) :
    k0_pay5 (F := Ideal) v0 v1 v30 = denseV (attendV (k0_pay4 (F := Ideal) v0 v1) (truncf .bf16 v1 bitsLt_bf16_f32)) v30 := rfl

/-- The dense product at entry `(0, q, o)`: the attended context of text row `q` against weight row `o`. -/
theorem pay5_read (v0 : Vec Ideal S1x256x1024 .f32) (v1 : Vec Ideal S1x576x1024 .f32) (v30 : Vec Ideal S1024x1024 .bf16)
    (q : Fin 256) (o : Fin 1024) :
    k0_pay5 (F := Ideal) v0 v1 v30 (ix3 0 q o)
      = ∑ h : Fin 1024, attend (weights eps scale ninf (rows v0) (rows v1)) (rows v1) q h * v30 (ix2 o h) := by
  rw [pay5_eq, denseV_read]
  refine Finset.sum_congr rfl fun h _ => congrArg (· * v30 (ix2 o h)) ?_
  rw [attendV_read]
  refine congrFun (congrFun (congrArg (fun A => attend A (rows v1)) ?_) q) h
  funext q' c'
  exact pay4_read v0 v1 q' c'

end Cert.KernelTxt

end
-- ==== Proof.Spec.lean ====
/-
  The layer's four results as whole-array functions of the argument arrays, entry by entry.
  A batch of `B` elements; `x : [B, Q, H]` the queries, `y : [B, C, H]` the context. Batch element `i 0` of the
  result depends on that batch element of the arguments only: entry `(b, q, c)` of the attention weights is
  `Cert.Attention.weights` of rows `x[b]` and `y[b]` at `(q, c)`, and entry `(b, q, o)` of the output is
  `Cert.Attention.output` of the same rows, the weight matrix `W : [O, H]` and the bias `bias : [O]`, at `(q, o)`.
  The three constants are the float words the programs write, read as extended reals; they are never evaluated.
-/
import proofs.«110716_j39582418600215_2_alg».proof.Proof.Attention
import Idealize.ShloMosaic.Lib.ValueIdx

noncomputable section

namespace Cert.Spec

open Idealize.ShloMosaic Idealize.ShloMosaic.ValueIdx Cert.Attention

/-- The constant added to a column's L1 norm. -/
abbrev eps : EReal := Ideal.ofBits .f32 0x322BCC77#32
/-- The factor the normalised scores are multiplied by. -/
abbrev scale : EReal := Ideal.ofBits .f32 0x41100000#32
/-- The start of the row maximum's fold. -/
abbrev ninf : EReal := Ideal.ofBits .f32 0xFF800000#32

variable {B Q C H O : Nat}

/-- The attention weights of every batch element. -/
def weightsArr (x : (⟨3, ![B, Q, H]⟩ : Shape).Idx → EReal) (y : (⟨3, ![B, C, H]⟩ : Shape).Idx → EReal) :
    (⟨3, ![B, Q, C]⟩ : Shape).Idx → EReal :=
  fun i => weights eps scale ninf (fun q h => x (ix3 (i 0) q h)) (fun c h => y (ix3 (i 0) c h)) (i 1) (i 2)

/-- The layer's output rows of every batch element. -/
def outputArr (x : (⟨3, ![B, Q, H]⟩ : Shape).Idx → EReal) (y : (⟨3, ![B, C, H]⟩ : Shape).Idx → EReal)
    (W : (⟨2, ![O, H]⟩ : Shape).Idx → EReal) (bias : (⟨1, ![O]⟩ : Shape).Idx → EReal) :
    (⟨3, ![B, Q, O]⟩ : Shape).Idx → EReal :=
  fun i => output eps scale ninf (fun q h => x (ix3 (i 0) q h)) (fun c h => y (ix3 (i 0) c h))
    (fun o h => W (ix2 o h)) (fun o => bias (ix1 o)) (i 1) (i 2)

theorem weightsArr_apply (x : (⟨3, ![B, Q, H]⟩ : Shape).Idx → EReal) (y : (⟨3, ![B, C, H]⟩ : Shape).Idx → EReal)
    (b : Fin B) (q : Fin Q) (c : Fin C) :
    weightsArr x y (ix3 b q c) = weights eps scale ninf (fun q h => x (ix3 b q h)) (fun c h => y (ix3 b c h)) q c := rfl

theorem outputArr_apply (x : (⟨3, ![B, Q, H]⟩ : Shape).Idx → EReal) (y : (⟨3, ![B, C, H]⟩ : Shape).Idx → EReal)
    (W : (⟨2, ![O, H]⟩ : Shape).Idx → EReal) (bias : (⟨1, ![O]⟩ : Shape).Idx → EReal) (b : Fin B) (q : Fin Q) (o : Fin O) :
    outputArr x y W bias (ix3 b q o) = output eps scale ninf (fun q h => x (ix3 b q h)) (fun c h => y (ix3 b c h))
      (fun o h => W (ix2 o h)) (fun o => bias (ix1 o)) q o := rfl

end Cert.Spec

end
-- ==== Proof.BlocksTxt.lean ====
/-
  From the kernel's blocks to its result arrays, for the two results of the direction in which the text rows
  attend over the image rows: the attention weights `[128, 256, 576]` and the output rows `[128, 256, 1024]`.
  The grid has one point per batch element. Point `t` reads batch element `t` of the text and image arrays, the
  whole weight matrix and the whole bias row, and writes batch element `t` of each result; the 128 blocks tile each
  result array. So each result array is the whole-array function of `Cert.Spec` of the argument arrays.
  Before the kernel runs, the weight matrix is narrowed in float format (the identity on the extended reals) and
  the bias vector `[1024]` is recast as a row `[1, 1024]`.
-/
import proofs.«110716_j39582418600215_2_alg».proof.Proof.Gen.KernelIdeal.Value
import proofs.«110716_j39582418600215_2_alg».proof.Proof.KernelTxt
import proofs.«110716_j39582418600215_2_alg».proof.Proof.Spec
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.BlocksTxt

open Cert.KernelIdeal Cert.KernelIdeal.Gen Cert.KernelIdeal.Value Cert.Attention Cert.KernelTxt Cert.Spec

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The block index of every window at point `t`: the batch windows sit at batch element `t`, the weight and bias
    windows at their one block. Decided over the 128 points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_6.index t (0 : Fin 3) = t.val ∧ win0_6.index t (1 : Fin 3) = 0 ∧ win0_6.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- The batch element point `t` works on. -/
def batchOf (t : Fin cfg0.N) : Fin 128 := ⟨t.val, by have h := t.isLt; have hN : cfg0.N = 128 := N_0; omega⟩

/-- The text block at point `t` is batch element `t` of the text array. -/
theorem txtBlock_read (c : Dev nD) (t : Fin cfg0.N) (q : Fin 256) (h : Fin 1024) :
    (iblk m c 0 t : Vec Ideal S1x256x1024 .f32) (ix3 0 q h)
      = (V m c main_arg0 : S128x256x1024.Idx → EReal) (ix3 (batchOf t) q h) := by
  obtain ⟨⟨e0, e1, e2⟩, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 256 + 1 * q.val = q.val; omega
  | ⟨2, _⟩ => show win0_0.index t (2 : Fin 3) * 1024 + 1 * h.val = h.val; omega

/-- The image block at point `t` is batch element `t` of the image array. -/
theorem imgBlock_read (c : Dev nD) (t : Fin cfg0.N) (r : Fin 576) (h : Fin 1024) :
    (iblk m c 1 t : Vec Ideal S1x576x1024 .f32) (ix3 0 r h)
      = (V m c main_arg1 : S128x576x1024.Idx → EReal) (ix3 (batchOf t) r h) := by
  obtain ⟨-, ⟨e0, e1, e2⟩, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 576 + 1 * r.val = r.val; omega
  | ⟨2, _⟩ => show win0_1.index t (2 : Fin 3) * 1024 + 1 * h.val = h.val; omega

/-- The weight block at every point is the whole narrowed weight matrix. -/
theorem wBlock_read (c : Dev nD) (t : Fin cfg0.N) (o : Fin 1024) (h : Fin 1024) :
    (iblk m c 2 t : Vec Ideal S1024x1024 .bf16) (ix2 o h) = (V m c main_v2 : S1024x1024.Idx → EReal) (ix2 o h) := by
  obtain ⟨-, -, ⟨e0, e1⟩, -⟩ := idx_facts t
  unfold iblk
  rw [View.read_apply]
  show V m c main_v2 _ = V m c main_v2 _
  refine congrArg (V m c main_v2) (funext fun a => Fin.ext ?_)
  match a with
  | ⟨0, _⟩ => show win0_2.index t (0 : Fin 2) * 1024 + 1 * o.val = o.val; omega
  | ⟨1, _⟩ => show win0_2.index t (1 : Fin 2) * 1024 + 1 * h.val = h.val; omega

/-- The bias block at every point is the whole bias row. -/
theorem bBlock_read (c : Dev nD) (t : Fin cfg0.N) (o : Fin 1024) :
    (iblk m c 3 t : Vec Ideal S1x1024 .f32) (ix2 0 o) = (V m c main_v0 : S1x1024.Idx → EReal) (ix2 0 o) := by
  obtain ⟨-, -, -, ⟨e0, e1⟩, -⟩ := idx_facts t
  unfold iblk
  rw [View.read_apply]
  show V m c main_v0 _ = V m c main_v0 _
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 1024 + 1 * o.val = o.val; omega

/-- The narrowed weight matrix, as the region finds it, is the weight argument entry by entry. -/
theorem wArr_read (c : Dev nD) (o h : Fin 1024) :
    (V m c main_v2 : S1024x1024.Idx → EReal) (ix2 o h)
      = (m ((c : Thread nD τ).loc main_arg2) : S1024x1024.Idx → EReal) (ix2 o h) := by
  have e : (V m c main_v2 : S1024x1024.Idx → EReal)
      = (truncf .bf16 (m ((c : Thread nD τ).loc main_arg2) : FVec Ideal S1024x1024 .f32) bitsLt_bf16_f32 : FVec Ideal S1024x1024 .bf16) := by
    dsimp only [Gen.V, Gen.hostOps0]; after_results
  rw [e]; rfl

/-- The bias row, as the region finds it, is the bias argument entry by entry. -/
theorem bArr_read (c : Dev nD) (o : Fin 1024) :
    (V m c main_v0 : S1x1024.Idx → EReal) (ix2 0 o)
      = (m ((c : Thread nD τ).loc main_arg3) : S1024.Idx → EReal) (ix1 o) := by
  have e : (V m c main_v0 : S1x1024.Idx → EReal)
      = shapeCast S1x1024 (m ((c : Thread nD τ).loc main_arg3) : S1024.Idx → EReal) shapeCasts_S1024_S1x1024 := by
    dsimp only [Gen.V, Gen.hostOps0]; after_results; rfl
  rw [e]
  exact shapeCast_a_1a_apply _ shapeCasts_S1024_S1x1024 0 o

/-! ## The attention weights: output window 8 -/

/-- What one point stores at block entry `y` is the whole-array function at the array entry `i` under it, for any
    blocks `B0`, `B1` that are batch element `bb` of the arrays `x0`, `x1`. -/
theorem point8 (x0 : S128x256x1024.Idx → EReal) (x1 : S128x576x1024.Idx → EReal)
    (B0 : Vec Ideal S1x256x1024 .f32) (B1 : Vec Ideal S1x576x1024 .f32) (bb : Fin 128)
    (h0 : ∀ (q : Fin 256) (h : Fin 1024), B0 (ix3 0 q h) = x0 (ix3 bb q h))
    (h1 : ∀ (r : Fin 576) (h : Fin 1024), B1 (ix3 0 r h) = x1 (ix3 bb r h))
    (y : S1x256x576.Idx) (i : S128x256x576.Idx)
    (e0 : (i 0).val = bb.val) (e1 : (i 1).val = (y 1).val) (e2 : (i 2).val = (y 2).val) :
    k0_pay4 (F := Ideal) B0 B1 y = weightsArr x0 x1 i := by
  obtain ⟨u, q, r, rfl⟩ : ∃ (u : Fin 1) (q : Fin 256) (r : Fin 576), y = ix3 u q r := ⟨y 0, y 1, y 2, eq_ix3 y⟩
  obtain ⟨b', q', r', rfl⟩ : ∃ (b' : Fin 128) (q' : Fin 256) (r' : Fin 576), i = ix3 b' q' r' := ⟨i 0, i 1, i 2, eq_ix3 i⟩
  obtain rfl : u = 0 := Subsingleton.elim _ _
  obtain rfl : b' = bb := Fin.ext e0
  obtain rfl : q' = q := Fin.ext e1
  obtain rfl : r' = r := Fin.ext e2
  rw [pay4_read, weightsArr_apply]
  rw [show rows B0 = fun q h => x0 (ix3 b' q h) from funext fun q => funext fun h => h0 q h,
    show rows B1 = fun r h => x1 (ix3 b' r h) from funext fun r => funext fun h => h1 r h]

/-- What point `t` writes back is block `t` of the attention weights of the argument arrays. -/
theorem flushed8_eq (c : Dev nD) (t : Fin cfg0.N) :
    (dats m 0 c).flushed 8 t = ((cfg0.win 8).blk t).view.read (Elt Ideal)
      (weightsArr (V m c main_arg0 : S128x256x1024.Idx → EReal) (V m c main_arg1 : S128x576x1024.Idx → EReal)
        : S128x256x576.Idx → EReal) := by
  rw [flushed8]
  unfold out0_8
  rw [View.canon_unit_zero hz3]
  simp only [View.ld_unit_zero (S := S1x256x1024) hz3, View.ld_unit_zero (S := S1x576x1024) hz3]
  obtain ⟨-, -, -, -, -, ⟨e0, e1, e2⟩⟩ := idx_facts t
  funext j
  show k0_pay4 (F := Ideal) (iblk m c 0 t) (iblk m c 1 t) j
    = weightsArr (V m c main_arg0 : S128x256x1024.Idx → EReal) (V m c main_arg1 : S128x576x1024.Idx → EReal)
        (((cfg0.win 8).blk t).view.emb j)
  have hj0 : (j 0).val < 1 := (j 0).isLt
  refine point8 _ _ (iblk m c 0 t) (iblk m c 1 t) (batchOf t) (txtBlock_read m c t) (imgBlock_read m c t) j _ ?_ ?_ ?_
  · show win0_8.index t (0 : Fin 3) * 1 + 1 * (j 0).val = t.val; omega
  · show win0_8.index t (1 : Fin 3) * 256 + 1 * (j 1).val = (j 1).val; omega
  · show win0_8.index t (2 : Fin 3) * 576 + 1 * (j 2).val = (j 2).val; omega

/-- An index of the weights array is in point `t`'s block iff each coordinate is in the block's range on its axis. -/
theorem mem_blk8 (t : Fin cfg0.N) (i : S128x256x576.Idx) :
    i ∈ ((cfg0.win 8).blk t).view.set ↔ ∀ a : Fin 3, win0_8.index t a * S1x256x576.size a ≤ (i a).val
      ∧ (i a).val < win0_8.index t a * S1x256x576.size a + S1x256x576.size a := by
  show i ∈ ((View.whole main_v4_2).slice (win0_8.rect t)).set ↔ _
  rw [View.set_slice_whole, Rect.mem_set_unit]
  exact Iff.rfl

/-- Every entry of the weights array is in the block of the point of its batch element. -/
theorem cover8 (i : S128x256x576.Idx) :
    ∃ t : Fin cfg0.N, (cfg0.win 8).flush t = true ∧ i ∈ ((cfg0.win 8).blk t).view.set := by
  have hi0 : (i 0).val < 128 := (i 0).isLt
  have hi1 : (i 1).val < 256 := (i 1).isLt
  have hi2 : (i 2).val < 576 := (i 2).isLt
  have hN : cfg0.N = 128 := N_0
  obtain ⟨t, ht⟩ : ∃ t : Fin cfg0.N, t.val = (i 0).val := ⟨⟨(i 0).val, by omega⟩, rfl⟩
  obtain ⟨-, -, -, -, -, ⟨e0, e1, e2⟩⟩ := idx_facts t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 576 ≤ (i 2).val ∧ (i 2).val < win0_8.index t (2 : Fin 3) * 576 + 576; omega

/-- The weights array after the run: the attention weights of the text and image arguments. -/
theorem final8 (c : Dev nD) : (dats m 0 c).arrAt 8 cfg0.N
    = (weightsArr (m ((c : Thread nD τ).loc main_arg0) : S128x256x1024.Idx → EReal)
        (m ((c : Thread nD τ).loc main_arg1) : S128x576x1024.Idx → EReal) : S128x256x576.Idx → EReal) := by
  rw [← V_main_arg0 m c, ← V_main_arg1 m c]
  exact (dats m 0 c).arrAt_eq_of_cover 8 _ (fun t _ => flushed8_eq m c t) cover8

/-! ## The output rows: output window 6 -/

/-- What one point leaves at block entry `y` is the whole-array function at the array entry `i` under it, for any
    blocks that are batch element `bb` of the arrays `x0`, `x1`, the whole weight matrix `w` and the bias `bias`
    as a row. -/
theorem point6 (x0 : S128x256x1024.Idx → EReal) (x1 : S128x576x1024.Idx → EReal)
    (w : S1024x1024.Idx → EReal) (bias : S1024.Idx → EReal)
    (B0 : Vec Ideal S1x256x1024 .f32) (B1 : Vec Ideal S1x576x1024 .f32) (B2 : Vec Ideal S1024x1024 .bf16)
    (B3 : Vec Ideal S1x1024 .f32) (bb : Fin 128)
    (h0 : ∀ (q : Fin 256) (h : Fin 1024), B0 (ix3 0 q h) = x0 (ix3 bb q h))
    (h1 : ∀ (r : Fin 576) (h : Fin 1024), B1 (ix3 0 r h) = x1 (ix3 bb r h))
    (h2 : ∀ (o h : Fin 1024), B2 (ix2 o h) = w (ix2 o h))
    (h3 : ∀ (o : Fin 1024), B3 (ix2 0 o) = bias (ix1 o))
    (y : S1x256x1024.Idx) (i : S128x256x1024.Idx)
    (e0 : (i 0).val = bb.val) (e1 : (i 1).val = (y 1).val) (e2 : (i 2).val = (y 2).val) :
    k0_pay7 (F := Ideal) (k0_pay5 B0 B1 B2) (k0_pay6 B3) y = outputArr x0 x1 w bias i := by
  obtain ⟨u, q, o, rfl⟩ : ∃ (u : Fin 1) (q : Fin 256) (o : Fin 1024), y = ix3 u q o := ⟨y 0, y 1, y 2, eq_ix3 y⟩
  obtain ⟨b', q', o', rfl⟩ : ∃ (b' : Fin 128) (q' : Fin 256) (o' : Fin 1024), i = ix3 b' q' o' := ⟨i 0, i 1, i 2, eq_ix3 i⟩
  obtain rfl : (0 : Fin 1) = u := Subsingleton.elim _ _
  obtain rfl : bb = b' := (Fin.ext e0).symm
  obtain rfl : q = q' := (Fin.ext e1).symm
  obtain rfl : o = o' := (Fin.ext e2).symm
  rw [piece6_0, outputArr_apply]
  show max (k0_pay5 (F := Ideal) B0 B1 B2 (ix6_0 (r0_0.idx (ix3 0 q o))) + B3 (ix6_1 (r0_0.idx (ix3 0 q o))))
      (Ideal.ofBits .f32 0x00000000#32)
    = max ((∑ h : Fin 1024, attend (weights Spec.eps Spec.scale Spec.ninf (fun q h => x0 (ix3 bb q h)) (fun r h => x1 (ix3 bb r h)))
        (fun r h => x1 (ix3 bb r h)) q h * w (ix2 o h)) + bias (ix1 o)) 0
  rw [show ix6_0 (r0_0.idx (ix3 0 q o)) = ix3 0 q o from funext fun a => Fin.ext (by
        match a with
        | ⟨0, _⟩ => rfl
        | ⟨1, _⟩ => show 0 + 1 * q.val = q.val; omega
        | ⟨2, _⟩ => show 0 + 1 * o.val = o.val; omega),
    show ix6_1 (r0_0.idx (ix3 0 q o)) = ix2 0 o from funext fun a => Fin.ext (by
        match a with
        | ⟨0, _⟩ => rfl
        | ⟨1, _⟩ => show 0 + 1 * o.val = o.val; omega),
    pay5_read, Ideal.ofBits_zero_f32, h3,
    show rows B0 = fun q h => x0 (ix3 bb q h) from funext fun q => funext fun h => h0 q h,
    show rows B1 = fun r h => x1 (ix3 bb r h) from funext fun r => funext fun h => h1 r h]
  refine congrArg (fun s => max (s + bias (ix1 o)) 0) (Finset.sum_congr rfl fun h _ => ?_)
  rw [h2]

/-- What point `t` writes back is block `t` of the output rows of the argument arrays. -/
theorem flushed6_eq (c : Dev nD) (t : Fin cfg0.N) :
    (dats m 0 c).flushed 6 t = ((cfg0.win 6).blk t).view.read (Elt Ideal)
      (outputArr (V m c main_arg0 : S128x256x1024.Idx → EReal) (V m c main_arg1 : S128x576x1024.Idx → EReal)
        (m ((c : Thread nD τ).loc main_arg2) : S1024x1024.Idx → EReal)
        (m ((c : Thread nD τ).loc main_arg3) : S1024.Idx → EReal) : S128x256x1024.Idx → EReal) := by
  rw [flushed6]
  unfold out0_6
  rw [View.canon_unit_zero hz3]
  simp only [View.ld_unit_zero (S := S1x256x1024) hz3, View.ld_unit_zero (S := S1x576x1024) hz3,
    View.ld_unit_zero (S := S1024x1024) hz2, View.ld_unit_zero (S := S1x1024) hz2]
  obtain ⟨-, -, -, -, ⟨e0, e1, e2⟩, -⟩ := idx_facts t
  funext j
  show k0_pay7 (F := Ideal) (k0_pay5 (iblk m c 0 t) (iblk m c 1 t) (iblk m c 2 t)) (k0_pay6 (iblk m c 3 t)) j
    = outputArr (V m c main_arg0 : S128x256x1024.Idx → EReal) (V m c main_arg1 : S128x576x1024.Idx → EReal)
        (m ((c : Thread nD τ).loc main_arg2) : S1024x1024.Idx → EReal)
        (m ((c : Thread nD τ).loc main_arg3) : S1024.Idx → EReal) (((cfg0.win 6).blk t).view.emb j)
  have hj0 : (j 0).val < 1 := (j 0).isLt
  refine point6 _ _ _ _ (iblk m c 0 t) (iblk m c 1 t) (iblk m c 2 t) (iblk m c 3 t) (batchOf t)
    (txtBlock_read m c t) (imgBlock_read m c t)
    (fun o h => (wBlock_read m c t o h).trans (wArr_read m c o h))
    (fun o => (bBlock_read m c t o).trans (bArr_read m c o)) j _ ?_ ?_ ?_
  · show win0_6.index t (0 : Fin 3) * 1 + 1 * (j 0).val = t.val; omega
  · show win0_6.index t (1 : Fin 3) * 256 + 1 * (j 1).val = (j 1).val; omega
  · show win0_6.index t (2 : Fin 3) * 1024 + 1 * (j 2).val = (j 2).val; omega

/-- An index of the output array is in point `t`'s block iff each coordinate is in the block's range on its axis. -/
theorem mem_blk6 (t : Fin cfg0.N) (i : S128x256x1024.Idx) :
    i ∈ ((cfg0.win 6).blk t).view.set ↔ ∀ a : Fin 3, win0_6.index t a * S1x256x1024.size a ≤ (i a).val
      ∧ (i a).val < win0_6.index t a * S1x256x1024.size a + S1x256x1024.size a := by
  show i ∈ ((View.whole main_v4_0).slice (win0_6.rect t)).set ↔ _
  rw [View.set_slice_whole, Rect.mem_set_unit]
  exact Iff.rfl

/-- Every entry of the output array is in the block of the point of its batch element. -/
theorem cover6 (i : S128x256x1024.Idx) :
    ∃ t : Fin cfg0.N, (cfg0.win 6).flush t = true ∧ i ∈ ((cfg0.win 6).blk t).view.set := by
  have hi0 : (i 0).val < 128 := (i 0).isLt
  have hi1 : (i 1).val < 256 := (i 1).isLt
  have hi2 : (i 2).val < 1024 := (i 2).isLt
  have hN : cfg0.N = 128 := N_0
  obtain ⟨t, ht⟩ : ∃ t : Fin cfg0.N, t.val = (i 0).val := ⟨⟨(i 0).val, by omega⟩, rfl⟩
  obtain ⟨-, -, -, -, ⟨e0, e1, e2⟩, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 1024 ≤ (i 2).val ∧ (i 2).val < win0_6.index t (2 : Fin 3) * 1024 + 1024; omega

/-- The output array after the run: the layer's output rows of the four arguments. -/
theorem final6 (c : Dev nD) : (dats m 0 c).arrAt 6 cfg0.N
    = (outputArr (m ((c : Thread nD τ).loc main_arg0) : S128x256x1024.Idx → EReal)
        (m ((c : Thread nD τ).loc main_arg1) : S128x576x1024.Idx → EReal)
        (m ((c : Thread nD τ).loc main_arg2) : S1024x1024.Idx → EReal)
        (m ((c : Thread nD τ).loc main_arg3) : S1024.Idx → EReal) : S128x256x1024.Idx → EReal) := by
  rw [← V_main_arg0 m c, ← V_main_arg1 m c]
  exact (dats m 0 c).arrAt_eq_of_cover 6 _ (fun t _ => flushed6_eq m c t) cover6

end Cert.BlocksTxt

end
-- ==== Proof.KernelImg.lean ====
/-
  The kernel's body for the direction in which the 576 image rows attend over the 256 text rows, read at an
  entry. The body works on one batch element: an image block `[1, 576, 1024]` and a text block `[1, 256, 1024]`.
  Its attention weights are built in three layers, each a vector operation on a `[1, 576, 256]` block:
    * `scoreV`: the product of the two blocks contracted over the 1024 features, clipped at zero;
    * `normV`: each text column divided by (its sum of absolute values over the 576 image rows, plus a
      constant), times a constant;
    * `softmaxV`: each image row's maximum subtracted, the exponential taken, divided by the row's sum.
  Each layer at entry `(0, q, c)` is the corresponding function of `Cert.Attention` of the block's rows.
  A change of float format is the identity on the extended reals.
-/
import proofs.«110716_j39582418600215_2_alg».proof.Proof.Gen.KernelIdeal.Skeleton
import proofs.«110716_j39582418600215_2_alg».proof.Proof.Attention
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelImg

open Idealize.ShloMosaic Idealize.ShloMosaic.ValueIdx Cert.KernelIdeal Cert.KernelIdeal.Gen
open Cert.Attention

/-- The rows of a one-batch block `[1, n, k]`. -/
def rows {n k : Nat} (v : (⟨3, ![1, n, k]⟩ : Shape).Idx → EReal) : Fin n → Fin k → EReal := fun a b => v (ix3 0 a b)

/-- The constant added to a column's L1 norm. -/
abbrev eps : EReal := Ideal.ofBits .f32 0x322BCC77#32
/-- The factor the normalised scores are multiplied by. -/
abbrev scale : EReal := Ideal.ofBits .f32 0x41100000#32
/-- The start of the row maximum's fold. -/
abbrev ninf : EReal := Ideal.ofBits .f32 0xFF800000#32

/-! ## The score product -/

abbrev dScore := dot_S1x576x1024_S1x256x1024_S1x576x256_2_2_1_1_0_0

/-- The image operand of the score at entry `(0, q, c)` and feature `k` is read at `(0, q, k)`. -/
theorem dScore_lhs (q : Fin 576) (c : Fin 256) (k : Fin 1024) :
    dScore.lhsIdx (ix3 0 q c) ((contrEquiv1 dScore 1024 rfl rfl).symm k) = ix3 0 q k := by
  funext a; refine Fin.ext ?_
  match a with
  | ⟨0, _⟩ => rfl
  | ⟨1, _⟩ => rfl
  | ⟨2, _⟩ => exact (dScore.lhsIdx_val_of_single rfl _ _).trans (contrEquiv1_symm_val dScore 1024 rfl rfl k)

/-- The text operand of the score at entry `(0, q, c)` and feature `k` is read at `(0, c, k)`. -/
theorem dScore_rhs (q : Fin 576) (c : Fin 256) (k : Fin 1024) :
    dScore.rhsIdx (ix3 0 q c) ((contrEquiv1 dScore 1024 rfl rfl).symm k) = ix3 0 c k := by
  funext a; refine Fin.ext ?_
  match a with
  | ⟨0, _⟩ => rfl
  | ⟨1, _⟩ => rfl
  | ⟨2, _⟩ => exact (dScore.rhsIdx_val_of_single rfl _ _).trans (contrEquiv1_symm_val dScore 1024 rfl rfl k)

/-- The clipped score block. -/
def scoreV (v2 : FVec Ideal S1x576x1024 .bf16) (v3 : FVec Ideal S1x256x1024 .bf16) : FVec Ideal S1x576x256 .f32 :=
  maximumf (matmul dScore none v2 v3 (constant (F := Ideal) S1x576x256 .f32 0x00000000#32))
    (broadcast S1x576x256 (Scalar.ofBits (F := Ideal) .f32 0x00000000#32))

theorem scoreV_read (v2 : FVec Ideal S1x576x1024 .bf16) (v3 : FVec Ideal S1x256x1024 .bf16) (q : Fin 576) (c : Fin 256) :
    scoreV v2 v3 (ix3 0 q c) = score (rows v2) (rows v3) q c := by
  show max (FloatOps.matmul dScore none v2 v3 (constant (F := Ideal) S1x576x256 .f32 0x00000000#32) (ix3 0 q c))
      (Ideal.ofBits .f32 0x00000000#32) = max (∑ h : Fin 1024, v2 (ix3 0 q h) * v3 (ix3 0 c h)) 0
  rw [Ideal.matmul_constant_zero_apply, Ideal.ofBits_zero_f32, ← Equiv.sum_comp (contrEquiv1 dScore 1024 rfl rfl).symm]
  refine congrArg (max · 0) (Finset.sum_congr rfl fun k _ => ?_)
  rw [dScore_lhs, dScore_rhs]

/-! ## Column sums and row reductions, kept as unit axes and spread back over the block -/

/-- A vector of per-column values `[1, 256]`, recast as `[1, 1, 256]` with a constant added and spread down the 576
    rows, read at `(0, q, c)`: the column's value plus the constant. -/
theorem colSpread_read (u : FVec Ideal S1x256 .f32) (e : EReal) (q : Fin 576) (c : Fin 256) :
    broadcastTo S1x576x256 (addf (shapeCast S1x1x256 u shapeCasts_S1x256_S1x1x256) (broadcast S1x1x256 e))
      broadcasts_S1x1x256_S1x576x256 (ix3 0 q c) = u (ix2 0 c) + e := by
  refine (broadcastTo_apply _ _ (ix3 0 q c) (ix3 0 0 c) (fun a => match a with
    | ⟨0, _⟩ => by show (0 : Nat) = (if (1 : Nat) = 1 then 0 else (0 : Nat)); rw [if_pos rfl]
    | ⟨1, _⟩ => by show (0 : Nat) = (if (1 : Nat) = 1 then 0 else q.val); rw [if_pos rfl]
    | ⟨2, _⟩ => by show c.val = (if (256 : Nat) = 1 then 0 else c.val); rw [if_neg (by decide)])).trans ?_
  show shapeCast S1x1x256 u shapeCasts_S1x256_S1x1x256 (ix3 0 0 c) + e = u (ix2 0 c) + e
  refine congrArg (· + e) ?_
  exact shapeCast_apply _ _ (ix3 0 0 c) (ix2 0 c) (by
    rw [Shape.rowMajor_val_two, Shape.rowMajor_val_three]
    show 0 * 256 + c.val = (0 * 1 + 0) * 256 + c.val
    omega)

/-- The sum of a block over its 576 rows, at column `c`. -/
theorem colSum_read (w : FVec Ideal S1x576x256 .f32) (c : Fin 256) :
    multiReduction .add [1] S1x256 w 0x00000000#32 reduces_S1x576x256_S1x256 (.inl rfl) rfl (ix2 0 c)
      = ∑ q' : Fin 576, w (ix3 0 q' c) := by
  refine (Ideal.multiReduction_add_single w 0x00000000#32 reduces_S1x576x256_S1x256 (.inl rfl) rfl (ix2 0 c)).trans ?_
  show (∑ k : Fin 576, w (reduces_S1x576x256_S1x256.lift (ix2 0 c) k)) = ∑ q' : Fin 576, w (ix3 0 q' c)
  refine Finset.sum_congr rfl fun k _ => congrArg w (funext fun a => Fin.ext ?_)
  match a with
  | ⟨0, _⟩ => rfl
  | ⟨1, _⟩ => rfl
  | ⟨2, _⟩ => rfl

/-- A vector of per-row values `[1, 576]`, recast as `[1, 576, 1]` and spread across the 256 columns, read at
    `(0, q, c)`: the row's value. -/
theorem rowSpread_read (u : FVec Ideal S1x576 .f32) (q : Fin 576) (c : Fin 256) :
    broadcastTo S1x576x256 (shapeCast S1x576x1 u shapeCasts_S1x576_S1x576x1) broadcasts_S1x576x1_S1x576x256 (ix3 0 q c)
      = u (ix2 0 q) := by
  refine (broadcastTo_apply _ _ (ix3 0 q c) (ix3 0 q 0) (fun a => match a with
    | ⟨0, _⟩ => by show (0 : Nat) = (if (1 : Nat) = 1 then 0 else (0 : Nat)); rw [if_pos rfl]
    | ⟨1, _⟩ => by show q.val = (if (576 : Nat) = 1 then 0 else q.val); rw [if_neg (by decide)]
    | ⟨2, _⟩ => by show (0 : Nat) = (if (1 : Nat) = 1 then 0 else c.val); rw [if_pos rfl])).trans ?_
  exact shapeCast_apply _ _ (ix3 0 q 0) (ix2 0 q) (by
    rw [Shape.rowMajor_val_two, Shape.rowMajor_val_three]
    show 0 * 576 + q.val = (0 * 576 + q.val) * 1 + 0
    omega)

/-- The sum of a block over its 256 columns, at row `q`. -/
theorem rowSum_read (w : FVec Ideal S1x576x256 .f32) (q : Fin 576) :
    multiReduction .add [2] S1x576 w 0x00000000#32 reduces_S1x576x256_S1x576 (.inl rfl) rfl (ix2 0 q)
      = ∑ c' : Fin 256, w (ix3 0 q c') := by
  refine (Ideal.multiReduction_add_single w 0x00000000#32 reduces_S1x576x256_S1x576 (.inl rfl) rfl (ix2 0 q)).trans ?_
  show (∑ k : Fin 256, w (reduces_S1x576x256_S1x576.lift (ix2 0 q) k)) = ∑ c' : Fin 256, w (ix3 0 q c')
  refine Finset.sum_congr rfl fun k _ => congrArg w (funext fun a => Fin.ext ?_)
  match a with
  | ⟨0, _⟩ => rfl
  | ⟨1, _⟩ => rfl
  | ⟨2, _⟩ => rfl

/-- The maximum of a block over its 256 columns, at row `q`: the fold of `max` from the start value. -/
theorem rowMax_read (w : FVec Ideal S1x576x256 .f32) (q : Fin 576) :
    multiReduction .maximumf [2] S1x576 w 0xFF800000#32 reduces_S1x576x256_S1x576 (.inl rfl) rfl (ix2 0 q)
      = rowMax ninf (rows w) q := by
  refine (Ideal.multiReduction_maximumf_single w 0xFF800000#32 reduces_S1x576x256_S1x576 (.inl rfl) rfl (ix2 0 q)).trans ?_
  show (Finset.univ : Finset (Fin 256)).fold max ninf (w ∘ reduces_S1x576x256_S1x576.lift (ix2 0 q))
    = (Finset.univ : Finset (Fin 256)).fold max ninf (fun c' => w (ix3 0 q c'))
  refine congrArg (fun f => (Finset.univ : Finset (Fin 256)).fold max ninf f) (funext fun k => congrArg w (funext fun a => Fin.ext ?_))
  match a with
  | ⟨0, _⟩ => rfl
  | ⟨1, _⟩ => rfl
  | ⟨2, _⟩ => rfl

/-! ## The normalisation and the softmax -/

/-- The scores divided column by column by (the column's L1 norm plus a constant), times a constant. -/
def normV (v6 : FVec Ideal S1x576x256 .f32) : FVec Ideal S1x576x256 .f32 :=
  mulf (divf v6 (broadcastTo S1x576x256 (addf (shapeCast S1x1x256
      (multiReduction .add [1] S1x256 (absf v6) 0x00000000#32 reduces_S1x576x256_S1x256 (.inl rfl) rfl)
      shapeCasts_S1x256_S1x1x256) (broadcast S1x1x256 (Scalar.ofBits (F := Ideal) .f32 0x322BCC77#32)))
      broadcasts_S1x1x256_S1x576x256))
    (broadcast S1x576x256 (Scalar.ofBits (F := Ideal) .f32 0x41100000#32))

theorem normV_read (v6 : FVec Ideal S1x576x256 .f32) (q : Fin 576) (c : Fin 256) :
    normV v6 (ix3 0 q c) = normalize eps scale (rows v6) q c := by
  show Ideal.div (v6 (ix3 0 q c)) (broadcastTo S1x576x256 (addf (shapeCast S1x1x256
      (multiReduction .add [1] S1x256 (absf v6) 0x00000000#32 reduces_S1x576x256_S1x256 (.inl rfl) rfl)
      shapeCasts_S1x256_S1x1x256) (broadcast S1x1x256 eps)) broadcasts_S1x1x256_S1x576x256 (ix3 0 q c)) * scale
    = Ideal.div (v6 (ix3 0 q c)) ((∑ q' : Fin 576, max (v6 (ix3 0 q' c)) (-(v6 (ix3 0 q' c)))) + eps) * scale
  rw [colSpread_read, colSum_read]
  rfl

/-- The row maximum subtracted from every entry. -/
def shiftV (v15 : FVec Ideal S1x576x256 .f32) : FVec Ideal S1x576x256 .f32 :=
  subf v15 (broadcastTo S1x576x256 (shapeCast S1x576x1
    (multiReduction .maximumf [2] S1x576 v15 0xFF800000#32 reduces_S1x576x256_S1x576 (.inl rfl) rfl)
    shapeCasts_S1x576_S1x576x1) broadcasts_S1x576x1_S1x576x256)

theorem shiftV_read (v15 : FVec Ideal S1x576x256 .f32) (q : Fin 576) (c : Fin 256) :
    shiftV v15 (ix3 0 q c) = v15 (ix3 0 q c) - rowMax ninf (rows v15) q := by
  show v15 (ix3 0 q c) - broadcastTo S1x576x256 (shapeCast S1x576x1
    (multiReduction .maximumf [2] S1x576 v15 0xFF800000#32 reduces_S1x576x256_S1x576 (.inl rfl) rfl)
    shapeCasts_S1x576_S1x576x1) broadcasts_S1x576x1_S1x576x256 (ix3 0 q c) = _
  rw [rowSpread_read, rowMax_read]

/-- The exponentials divided row by row by their sum. -/
def softmaxV (v15 : FVec Ideal S1x576x256 .f32) : FVec Ideal S1x576x256 .f32 :=
  divf (exp (shiftV v15)) (broadcastTo S1x576x256 (shapeCast S1x576x1
    (multiReduction .add [2] S1x576 (exp (shiftV v15)) 0x00000000#32 reduces_S1x576x256_S1x576 (.inl rfl) rfl)
    shapeCasts_S1x576_S1x576x1) broadcasts_S1x576x1_S1x576x256)

theorem softmaxV_read (v15 : FVec Ideal S1x576x256 .f32) (q : Fin 576) (c : Fin 256) :
    softmaxV v15 (ix3 0 q c) = softmax ninf (rows v15) q c := by
  show Ideal.div (Ideal.exp (shiftV v15 (ix3 0 q c))) (broadcastTo S1x576x256 (shapeCast S1x576x1
    (multiReduction .add [2] S1x576 (exp (shiftV v15)) 0x00000000#32 reduces_S1x576x256_S1x576 (.inl rfl) rfl)
    shapeCasts_S1x576_S1x576x1) broadcasts_S1x576x1_S1x576x256 (ix3 0 q c)) = _
  rw [rowSpread_read, rowSum_read, shiftV_read]
  show _ = Ideal.div (Ideal.exp (v15 (ix3 0 q c) - rowMax ninf (rows v15) q))
    (∑ c' : Fin 256, Ideal.exp (v15 (ix3 0 q c') - rowMax ninf (rows v15) q))
  refine congrArg (Ideal.div _) (Finset.sum_congr rfl fun c' _ => ?_)
  show Ideal.exp (shiftV v15 (ix3 0 q c')) = _
  rw [shiftV_read]

/-- The attention weights the body stores: the three layers composed (the body has already narrowed the two
    blocks' float format; `v2` is the text block, `v3` the image block). -/
theorem pay8_eq (v2 : FVec Ideal S1x256x1024 .bf16) (v3 : FVec Ideal S1x576x1024 .bf16) :
    k0_pay8 (F := Ideal) v2 v3 = softmaxV (normV (scoreV v3 v2)) := rfl

/-- The stored weights at entry `(0, q, c)`: the attention weights of the image block's rows over the text block's. -/
theorem pay8_read (v2 : FVec Ideal S1x256x1024 .bf16) (v3 : FVec Ideal S1x576x1024 .bf16) (q : Fin 576) (c : Fin 256) :
    k0_pay8 (F := Ideal) v2 v3 (ix3 0 q c) = weights eps scale ninf (rows v3) (rows v2) q c := by
  rw [pay8_eq, softmaxV_read]
  unfold weights
  refine congrFun (congrFun (congrArg (softmax ninf) ?_) q) c
  funext q' c'
  show normV _ (ix3 0 q' c') = _
  rw [normV_read]
  refine congrFun (congrFun (congrArg (normalize eps scale) ?_) q') c'
  funext q'' c''
  show scoreV _ _ (ix3 0 q'' c'') = _
  rw [scoreV_read]

/-! ## The attended context and the dense layer -/

abbrev dCtx := dot_S1x576x256_S1x256x1024_S1x576x1024_2_1_1_2_0_0

/-- The weights operand of the attended context at entry `(0, q, h)` and text row `k` is read at `(0, q, k)`. -/
theorem dCtx_lhs (q : Fin 576) (h : Fin 1024) (k : Fin 256) :
    dCtx.lhsIdx (ix3 0 q h) ((contrEquiv1 dCtx 256 rfl rfl).symm k) = ix3 0 q k := by
  funext a; refine Fin.ext ?_
  match a with
  | ⟨0, _⟩ => rfl
  | ⟨1, _⟩ => rfl
  | ⟨2, _⟩ => exact (dCtx.lhsIdx_val_of_single rfl _ _).trans (contrEquiv1_symm_val dCtx 256 rfl rfl k)

/-- The text operand of the attended context at entry `(0, q, h)` and text row `k` is read at `(0, k, h)`. -/
theorem dCtx_rhs (q : Fin 576) (h : Fin 1024) (k : Fin 256) :
    dCtx.rhsIdx (ix3 0 q h) ((contrEquiv1 dCtx 256 rfl rfl).symm k) = ix3 0 k h := by
  funext a; refine Fin.ext ?_
  match a with
  | ⟨0, _⟩ => rfl
  | ⟨1, _⟩ => exact (dCtx.rhsIdx_val_of_single rfl _ _).trans (contrEquiv1_symm_val dCtx 256 rfl rfl k)
  | ⟨2, _⟩ => rfl

/-- The attention-weighted sum of the text rows. -/
def attendV (A : FVec Ideal S1x576x256 .f32) (v3 : FVec Ideal S1x256x1024 .bf16) : FVec Ideal S1x576x1024 .f32 :=
  matmul dCtx none (truncf .bf16 A bitsLt_bf16_f32) v3 (constant (F := Ideal) S1x576x1024 .f32 0x00000000#32)

theorem attendV_read (A : FVec Ideal S1x576x256 .f32) (v3 : FVec Ideal S1x256x1024 .bf16) (q : Fin 576) (h : Fin 1024) :
    attendV A v3 (ix3 0 q h) = attend (rows A) (rows v3) q h := by
  show FloatOps.matmul dCtx none (truncf .bf16 A bitsLt_bf16_f32) v3 (constant (F := Ideal) S1x576x1024 .f32 0x00000000#32) (ix3 0 q h)
    = ∑ c : Fin 256, A (ix3 0 q c) * v3 (ix3 0 c h)
  rw [Ideal.matmul_constant_zero_apply, ← Equiv.sum_comp (contrEquiv1 dCtx 256 rfl rfl).symm]
  refine Finset.sum_congr rfl fun k _ => ?_
  rw [dCtx_lhs, dCtx_rhs]
  rfl

abbrev dFc := dot_S576x1024_S1024x1024_S576x1024_1_1_0_0_n_n

/-- The row operand of the dense product at entry `(q, o)` and feature `k` is read at `(q, k)`. -/
theorem dFc_lhs (q : Fin 576) (o : Fin 1024) (k : Fin 1024) :
    dFc.lhsIdx (ix2 q o) ((contrEquiv1 dFc 1024 rfl rfl).symm k) = ix2 q k := by
  funext a; refine Fin.ext ?_
  match a with
  | ⟨0, _⟩ => rfl
  | ⟨1, _⟩ => exact (dFc.lhsIdx_val_of_single rfl _ _).trans (contrEquiv1_symm_val dFc 1024 rfl rfl k)

/-- The weight operand of the dense product at entry `(q, o)` and feature `k` is read at `(o, k)`. -/
theorem dFc_rhs (q : Fin 576) (o : Fin 1024) (k : Fin 1024) :
    dFc.rhsIdx (ix2 q o) ((contrEquiv1 dFc 1024 rfl rfl).symm k) = ix2 o k := by
  funext a; refine Fin.ext ?_
  match a with
  | ⟨0, _⟩ => rfl
  | ⟨1, _⟩ => exact (dFc.rhsIdx_val_of_single rfl _ _).trans (contrEquiv1_symm_val dFc 1024 rfl rfl k)

/-- The rows of the block, as a matrix, times the weight matrix contracted on its second axis, as a block again. -/
def denseV (X : FVec Ideal S1x576x1024 .f32) (v30 : FVec Ideal S1024x1024 .bf16) : FVec Ideal S1x576x1024 .f32 :=
  shapeCast S1x576x1024 (matmul dFc none
    (shapeCast S576x1024 (truncf .bf16 X bitsLt_bf16_f32) shapeCasts_S1x576x1024_S576x1024)
    (shapeCast S1024x1024 v30 shapeCasts_S1024x1024_S1024x1024)
    (constant (F := Ideal) S576x1024 .f32 0x00000000#32)) shapeCasts_S576x1024_S1x576x1024

theorem denseV_read (X : FVec Ideal S1x576x1024 .f32) (v30 : FVec Ideal S1024x1024 .bf16) (q : Fin 576) (o : Fin 1024) :
    denseV X v30 (ix3 0 q o) = ∑ h : Fin 1024, X (ix3 0 q h) * v30 (ix2 o h) := by
  refine (shapeCast_ab_1ab_apply _ shapeCasts_S576x1024_S1x576x1024 0 q o).trans ?_
  show FloatOps.matmul dFc none (shapeCast S576x1024 (truncf .bf16 X bitsLt_bf16_f32) shapeCasts_S1x576x1024_S576x1024)
    (shapeCast S1024x1024 v30 shapeCasts_S1024x1024_S1024x1024) (constant (F := Ideal) S576x1024 .f32 0x00000000#32) (ix2 q o) = _
  rw [Ideal.matmul_constant_zero_apply, ← Equiv.sum_comp (contrEquiv1 dFc 1024 rfl rfl).symm]
  refine Finset.sum_congr rfl fun k _ => ?_
  rw [dFc_lhs, dFc_rhs, shapeCast_self]
  refine congrArg (· * v30 (ix2 o k)) ?_
  exact shapeCast_1ab_ab_apply (truncf .bf16 X bitsLt_bf16_f32) shapeCasts_S1x576x1024_S576x1024 q k

/-- The dense product the body computes: the two layers over the stored weights. -/
theorem pay9_eq (v2 : FVec Ideal S1x256x1024 .bf16) (v3 : FVec Ideal S1x576x1024 .bf16) (v68 : Vec Ideal S1024x1024 .bf16) :
    k0_pay9 (F := Ideal) v2 v3 v68 = denseV (attendV (k0_pay8 (F := Ideal) v2 v3) v2) v68 := rfl

/-- The dense product at entry `(0, q, o)`: the attended context of image row `q` against weight row `o`. -/
theorem pay9_read (v2 : FVec Ideal S1x256x1024 .bf16) (v3 : FVec Ideal S1x576x1024 .bf16) (v68 : Vec Ideal S1024x1024 .bf16)
    (q : Fin 576) (o : Fin 1024) :
    k0_pay9 (F := Ideal) v2 v3 v68 (ix3 0 q o)
      = ∑ h : Fin 1024, attend (weights eps scale ninf (rows v3) (rows v2)) (rows v2) q h * v68 (ix2 o h) := by
  rw [pay9_eq, denseV_read]
  refine Finset.sum_congr rfl fun h _ => congrArg (· * v68 (ix2 o h)) ?_
  rw [attendV_read]
  refine congrFun (congrFun (congrArg (fun A => attend A (rows v2)) ?_) q) h
  funext q' c'
  exact pay8_read v2 v3 q' c'

end Cert.KernelImg

end
-- ==== Proof.BlocksImg.lean ====
/-
  From the kernel's blocks to its result arrays, for the two results of the direction in which the image rows
  attend over the text rows: the attention weights `[128, 576, 256]` and the output rows `[128, 576, 1024]`.
  As for the other direction, point `t` of the grid reads batch element `t` of the text and image arrays, the whole
  (narrowed) weight matrix and the whole bias row of this direction, and writes batch element `t` of each result;
  the 128 blocks tile each result array. So each result array is the whole-array function of `Cert.Spec` of the
  argument arrays, the image array in the place of the queries and the text array in the place of the context.
-/
import proofs.«110716_j39582418600215_2_alg».proof.Proof.Gen.KernelIdeal.Value
import proofs.«110716_j39582418600215_2_alg».proof.Proof.KernelImg
import proofs.«110716_j39582418600215_2_alg».proof.Proof.Spec
import proofs.«110716_j39582418600215_2_alg».proof.Proof.BlocksTxt
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.BlocksImg

open Cert.KernelIdeal Cert.KernelIdeal.Gen Cert.KernelIdeal.Value Cert.Attention Cert.KernelImg Cert.Spec
open Cert.BlocksTxt (hz3 hz2 batchOf txtBlock_read imgBlock_read)

variable (m : (ℓ : Loc nD τ sig) → Buf (Elt Ideal) ℓ) (ρ : Dev nD → PrngReg)

/-- The block index of this direction's windows at point `t`: the result windows sit at batch element `t`, the
    weight and bias windows at their one block. Decided over the 128 points. -/
theorem idx_facts : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_7.index t (0 : Fin 3) = t.val ∧ win0_7.index t (1 : Fin 3) = 0 ∧ win0_7.index t (2 : Fin 3) = 0)
    ∧ (win0_9.index t (0 : Fin 3) = t.val ∧ win0_9.index t (1 : Fin 3) = 0 ∧ win0_9.index t (2 : Fin 3) = 0) :=
  (by decide +kernel : ∀ t : Fin grid0.N, _)

/-- The weight block at every point is the whole narrowed weight matrix. -/
theorem wBlock_read (c : Dev nD) (t : Fin cfg0.N) (o : Fin 1024) (h : Fin 1024) :
    (iblk m c 4 t : Vec Ideal S1024x1024 .bf16) (ix2 o h) = (V m c main_v3 : S1024x1024.Idx → EReal) (ix2 o h) := by
  obtain ⟨⟨e0, e1⟩, -⟩ := idx_facts t
  unfold iblk
  rw [View.read_apply]
  show V m c main_v3 _ = V m c main_v3 _
  refine congrArg (V m c main_v3) (funext fun a => Fin.ext ?_)
  match a with
  | ⟨0, _⟩ => show win0_4.index t (0 : Fin 2) * 1024 + 1 * o.val = o.val; omega
  | ⟨1, _⟩ => show win0_4.index t (1 : Fin 2) * 1024 + 1 * h.val = h.val; omega

/-- The bias block at every point is the whole bias row. -/
theorem bBlock_read (c : Dev nD) (t : Fin cfg0.N) (o : Fin 1024) :
    (iblk m c 5 t : Vec Ideal S1x1024 .f32) (ix2 0 o) = (V m c main_v1 : S1x1024.Idx → EReal) (ix2 0 o) := by
  obtain ⟨-, ⟨e0, e1⟩, -⟩ := idx_facts t
  unfold iblk
  rw [View.read_apply]
  show V m c main_v1 _ = V m c main_v1 _
  refine congrArg (V m c main_v1) (funext fun a => Fin.ext ?_)
  match a with
  | ⟨0, _⟩ => show win0_5.index t (0 : Fin 2) * 1 + 1 * 0 = 0; omega
  | ⟨1, _⟩ => show win0_5.index t (1 : Fin 2) * 1024 + 1 * o.val = o.val; omega

/-- The narrowed weight matrix, as the region finds it, is the weight argument entry by entry. -/
theorem wArr_read (c : Dev nD) (o h : Fin 1024) :
    (V m c main_v3 : S1024x1024.Idx → EReal) (ix2 o h)
      = (m ((c : Thread nD τ).loc main_arg4) : S1024x1024.Idx → EReal) (ix2 o h) := by
  have e : (V m c main_v3 : S1024x1024.Idx → EReal)
      = (truncf .bf16 (m ((c : Thread nD τ).loc main_arg4) : FVec Ideal S1024x1024 .f32) bitsLt_bf16_f32 : FVec Ideal S1024x1024 .bf16) := by
    dsimp only [Gen.V, Gen.hostOps0]; after_results
  rw [e]; rfl

/-- The bias row, as the region finds it, is the bias argument entry by entry. -/
theorem bArr_read (c : Dev nD) (o : Fin 1024) :
    (V m c main_v1 : S1x1024.Idx → EReal) (ix2 0 o)
      = (m ((c : Thread nD τ).loc main_arg5) : S1024.Idx → EReal) (ix1 o) := by
  have e : (V m c main_v1 : S1x1024.Idx → EReal)
      = shapeCast S1x1024 (m ((c : Thread nD τ).loc main_arg5) : S1024.Idx → EReal) shapeCasts_S1024_S1x1024 := by
    dsimp only [Gen.V, Gen.hostOps0]; after_results; rfl
  rw [e]
  exact shapeCast_a_1a_apply _ shapeCasts_S1024_S1x1024 0 o

/-! ## The attention weights: output window 9 -/

/-- What one point stores at block entry `y` is the whole-array function at the array entry `i` under it, for any
    blocks `B0`, `B1` that are batch element `bb` of the arrays `x0`, `x1`. -/
theorem point9 (x0 : S128x256x1024.Idx → EReal) (x1 : S128x576x1024.Idx → EReal)
    (B0 : Vec Ideal S1x256x1024 .f32) (B1 : Vec Ideal S1x576x1024 .f32) (bb : Fin 128)
    (h0 : ∀ (q : Fin 256) (h : Fin 1024), B0 (ix3 0 q h) = x0 (ix3 bb q h))
    (h1 : ∀ (r : Fin 576) (h : Fin 1024), B1 (ix3 0 r h) = x1 (ix3 bb r h))
    (y : S1x576x256.Idx) (i : S128x576x256.Idx)
    (e0 : (i 0).val = bb.val) (e1 : (i 1).val = (y 1).val) (e2 : (i 2).val = (y 2).val) :
    k0_pay8 (F := Ideal) (k0_pay2 B0) (k0_pay3 B1) y = weightsArr x1 x0 i := by
  obtain ⟨u, r, q, rfl⟩ : ∃ (u : Fin 1) (r : Fin 576) (q : Fin 256), y = ix3 u r q := ⟨y 0, y 1, y 2, eq_ix3 y⟩
  obtain ⟨b', r', q', rfl⟩ : ∃ (b' : Fin 128) (r' : Fin 576) (q' : Fin 256), i = ix3 b' r' q' := ⟨i 0, i 1, i 2, eq_ix3 i⟩
  obtain rfl : (0 : Fin 1) = u := Subsingleton.elim _ _
  obtain rfl : bb = b' := (Fin.ext e0).symm
  obtain rfl : r = r' := (Fin.ext e1).symm
  obtain rfl : q = q' := (Fin.ext e2).symm
  rw [pay8_read, weightsArr_apply]
  rw [show rows (k0_pay3 (F := Ideal) B1) = fun r h => x1 (ix3 bb r h) from funext fun r => funext fun h => h1 r h,
    show rows (k0_pay2 (F := Ideal) B0) = fun q h => x0 (ix3 bb q h) from funext fun q => funext fun h => h0 q h]

/-- What point `t` writes back is block `t` of the attention weights of the argument arrays. -/
theorem flushed9_eq (c : Dev nD) (t : Fin cfg0.N) :
    (dats m 0 c).flushed 9 t = ((cfg0.win 9).blk t).view.read (Elt Ideal)
      (weightsArr (V m c main_arg1 : S128x576x1024.Idx → EReal) (V m c main_arg0 : S128x256x1024.Idx → EReal)
        : S128x576x256.Idx → EReal) := by
  rw [flushed9]
  unfold out0_9
  rw [View.canon_unit_zero hz3]
  simp only [View.ld_unit_zero (S := S1x256x1024) hz3, View.ld_unit_zero (S := S1x576x1024) hz3]
  obtain ⟨-, -, -, ⟨e0, e1, e2⟩⟩ := idx_facts t
  funext j
  show k0_pay8 (F := Ideal) (k0_pay2 (iblk m c 0 t)) (k0_pay3 (iblk m c 1 t)) j
    = weightsArr (V m c main_arg1 : S128x576x1024.Idx → EReal) (V m c main_arg0 : S128x256x1024.Idx → EReal)
        (((cfg0.win 9).blk t).view.emb j)
  have hj0 : (j 0).val < 1 := (j 0).isLt
  refine point9 _ _ (iblk m c 0 t) (iblk m c 1 t) (batchOf t) (txtBlock_read m c t) (imgBlock_read m c t) j _ ?_ ?_ ?_
  · show win0_9.index t (0 : Fin 3) * 1 + 1 * (j 0).val = t.val; omega
  · show win0_9.index t (1 : Fin 3) * 576 + 1 * (j 1).val = (j 1).val; omega
  · show win0_9.index t (2 : Fin 3) * 256 + 1 * (j 2).val = (j 2).val; omega

/-- An index of the weights array is in point `t`'s block iff each coordinate is in the block's range on its axis. -/
theorem mem_blk9 (t : Fin cfg0.N) (i : S128x576x256.Idx) :
    i ∈ ((cfg0.win 9).blk t).view.set ↔ ∀ a : Fin 3, win0_9.index t a * S1x576x256.size a ≤ (i a).val
      ∧ (i a).val < win0_9.index t a * S1x576x256.size a + S1x576x256.size a := by
  show i ∈ ((View.whole main_v4_3).slice (win0_9.rect t)).set ↔ _
  rw [View.set_slice_whole, Rect.mem_set_unit]
  exact Iff.rfl

/-- Every entry of the weights array is in the block of the point of its batch element. -/
theorem cover9 (i : S128x576x256.Idx) :
    ∃ t : Fin cfg0.N, (cfg0.win 9).flush t = true ∧ i ∈ ((cfg0.win 9).blk t).view.set := by
  have hi0 : (i 0).val < 128 := (i 0).isLt
  have hi1 : (i 1).val < 576 := (i 1).isLt
  have hi2 : (i 2).val < 256 := (i 2).isLt
  have hN : cfg0.N = 128 := N_0
  obtain ⟨t, ht⟩ : ∃ t : Fin cfg0.N, t.val = (i 0).val := ⟨⟨(i 0).val, by omega⟩, rfl⟩
  obtain ⟨-, -, -, ⟨e0, e1, e2⟩⟩ := idx_facts t
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 576 ≤ (i 1).val ∧ (i 1).val < win0_9.index t (1 : Fin 3) * 576 + 576; omega
  | ⟨2, _⟩ => show win0_9.index t (2 : Fin 3) * 256 ≤ (i 2).val ∧ (i 2).val < win0_9.index t (2 : Fin 3) * 256 + 256; omega

/-- The weights array after the run: the attention weights of the image rows over the text rows. -/
theorem final9 (c : Dev nD) : (dats m 0 c).arrAt 9 cfg0.N
    = (weightsArr (m ((c : Thread nD τ).loc main_arg1) : S128x576x1024.Idx → EReal)
        (m ((c : Thread nD τ).loc main_arg0) : S128x256x1024.Idx → EReal) : S128x576x256.Idx → EReal) := by
  rw [← V_main_arg0 m c, ← V_main_arg1 m c]
  exact (dats m 0 c).arrAt_eq_of_cover 9 _ (fun t _ => flushed9_eq m c t) cover9

/-! ## The output rows: output window 7 -/

/-- What one point leaves at block entry `y` is the whole-array function at the array entry `i` under it, for any
    blocks that are batch element `bb` of the arrays `x0`, `x1`, the whole weight matrix `w` and the bias `bias`
    as a row. -/
theorem point7 (x0 : S128x256x1024.Idx → EReal) (x1 : S128x576x1024.Idx → EReal)
    (w : S1024x1024.Idx → EReal) (bias : S1024.Idx → EReal)
    (B0 : Vec Ideal S1x256x1024 .f32) (B1 : Vec Ideal S1x576x1024 .f32) (B4 : Vec Ideal S1024x1024 .bf16)
    (B5 : Vec Ideal S1x1024 .f32) (bb : Fin 128)
    (h0 : ∀ (q : Fin 256) (h : Fin 1024), B0 (ix3 0 q h) = x0 (ix3 bb q h))
    (h1 : ∀ (r : Fin 576) (h : Fin 1024), B1 (ix3 0 r h) = x1 (ix3 bb r h))
    (h2 : ∀ (o h : Fin 1024), B4 (ix2 o h) = w (ix2 o h))
    (h3 : ∀ (o : Fin 1024), B5 (ix2 0 o) = bias (ix1 o))
    (y : S1x576x1024.Idx) (i : S128x576x1024.Idx)
    (e0 : (i 0).val = bb.val) (e1 : (i 1).val = (y 1).val) (e2 : (i 2).val = (y 2).val) :
    k0_pay1 (F := Ideal) (k0_pay9 (k0_pay2 B0) (k0_pay3 B1) B4) (k0_pay10 B5) y = outputArr x1 x0 w bias i := by
  obtain ⟨u, r, o, rfl⟩ : ∃ (u : Fin 1) (r : Fin 576) (o : Fin 1024), y = ix3 u r o := ⟨y 0, y 1, y 2, eq_ix3 y⟩
  obtain ⟨b', r', o', rfl⟩ : ∃ (b' : Fin 128) (r' : Fin 576) (o' : Fin 1024), i = ix3 b' r' o' := ⟨i 0, i 1, i 2, eq_ix3 i⟩
  obtain rfl : (0 : Fin 1) = u := Subsingleton.elim _ _
  obtain rfl : bb = b' := (Fin.ext e0).symm
  obtain rfl : r = r' := (Fin.ext e1).symm
  obtain rfl : o = o' := (Fin.ext e2).symm
  rw [piece7_0, outputArr_apply]
  show max (k0_pay9 (F := Ideal) (truncf .bf16 B0 bitsLt_bf16_f32) (truncf .bf16 B1 bitsLt_bf16_f32) B4
        (ix7_0 (r0_1.idx (ix3 0 r o))) + B5 (ix7_1 (r0_1.idx (ix3 0 r o)))) (Ideal.ofBits .f32 0x00000000#32)
    = max ((∑ h : Fin 1024, attend (weights Spec.eps Spec.scale Spec.ninf (fun r h => x1 (ix3 bb r h)) (fun q h => x0 (ix3 bb q h)))
        (fun q h => x0 (ix3 bb q h)) r h * w (ix2 o h)) + bias (ix1 o)) 0
  rw [show ix7_0 (r0_1.idx (ix3 0 r o)) = ix3 0 r o from funext fun a => Fin.ext (by
        match a with
        | ⟨0, _⟩ => rfl
        | ⟨1, _⟩ => show 0 + 1 * r.val = r.val; omega
        | ⟨2, _⟩ => show 0 + 1 * o.val = o.val; omega),
    show ix7_1 (r0_1.idx (ix3 0 r o)) = ix2 0 o from funext fun a => Fin.ext (by
        match a with
        | ⟨0, _⟩ => rfl
        | ⟨1, _⟩ => show 0 + 1 * o.val = o.val; omega),
    pay9_read, Ideal.ofBits_zero_f32, h3,
    show rows (truncf .bf16 B1 bitsLt_bf16_f32 : FVec Ideal S1x576x1024 .bf16) = fun r h => x1 (ix3 bb r h)
      from funext fun r => funext fun h => h1 r h,
    show rows (truncf .bf16 B0 bitsLt_bf16_f32 : FVec Ideal S1x256x1024 .bf16) = fun q h => x0 (ix3 bb q h)
      from funext fun q => funext fun h => h0 q h]
  refine congrArg (fun s => max (s + bias (ix1 o)) 0) (Finset.sum_congr rfl fun h _ => ?_)
  rw [h2]

/-- What point `t` writes back is block `t` of the output rows of the argument arrays. -/
theorem flushed7_eq (c : Dev nD) (t : Fin cfg0.N) :
    (dats m 0 c).flushed 7 t = ((cfg0.win 7).blk t).view.read (Elt Ideal)
      (outputArr (V m c main_arg1 : S128x576x1024.Idx → EReal) (V m c main_arg0 : S128x256x1024.Idx → EReal)
        (m ((c : Thread nD τ).loc main_arg4) : S1024x1024.Idx → EReal)
        (m ((c : Thread nD τ).loc main_arg5) : S1024.Idx → EReal) : S128x576x1024.Idx → EReal) := by
  rw [flushed7]
  unfold out0_7
  rw [View.canon_unit_zero hz3]
  simp only [View.ld_unit_zero (S := S1x256x1024) hz3, View.ld_unit_zero (S := S1x576x1024) hz3,
    View.ld_unit_zero (S := S1024x1024) hz2, View.ld_unit_zero (S := S1x1024) hz2]
  obtain ⟨-, -, ⟨e0, e1, e2⟩, -⟩ := idx_facts t
  funext j
  show k0_pay1 (F := Ideal) (k0_pay9 (k0_pay2 (iblk m c 0 t)) (k0_pay3 (iblk m c 1 t)) (iblk m c 4 t)) (k0_pay10 (iblk m c 5 t)) j
    = outputArr (V m c main_arg1 : S128x576x1024.Idx → EReal) (V m c main_arg0 : S128x256x1024.Idx → EReal)
        (m ((c : Thread nD τ).loc main_arg4) : S1024x1024.Idx → EReal)
        (m ((c : Thread nD τ).loc main_arg5) : S1024.Idx → EReal) (((cfg0.win 7).blk t).view.emb j)
  have hj0 : (j 0).val < 1 := (j 0).isLt
  refine point7 _ _ _ _ (iblk m c 0 t) (iblk m c 1 t) (iblk m c 4 t) (iblk m c 5 t) (batchOf t)
    (txtBlock_read m c t) (imgBlock_read m c t)
    (fun o h => (wBlock_read m c t o h).trans (wArr_read m c o h))
    (fun o => (bBlock_read m c t o).trans (bArr_read m c o)) j _ ?_ ?_ ?_
  · show win0_7.index t (0 : Fin 3) * 1 + 1 * (j 0).val = t.val; omega
  · show win0_7.index t (1 : Fin 3) * 576 + 1 * (j 1).val = (j 1).val; omega
  · show win0_7.index t (2 : Fin 3) * 1024 + 1 * (j 2).val = (j 2).val; omega

/-- An index of the output array is in point `t`'s block iff each coordinate is in the block's range on its axis. -/
theorem mem_blk7 (t : Fin cfg0.N) (i : S128x576x1024.Idx) :
    i ∈ ((cfg0.win 7).blk t).view.set ↔ ∀ a : Fin 3, win0_7.index t a * S1x576x1024.size a ≤ (i a).val
      ∧ (i a).val < win0_7.index t a * S1x576x1024.size a + S1x576x1024.size a := by
  show i ∈ ((View.whole main_v4_1).slice (win0_7.rect t)).set ↔ _
  rw [View.set_slice_whole, Rect.mem_set_unit]
  exact Iff.rfl

/-- Every entry of the output array is in the block of the point of its batch element. -/
theorem cover7 (i : S128x576x1024.Idx) :
    ∃ t : Fin cfg0.N, (cfg0.win 7).flush t = true ∧ i ∈ ((cfg0.win 7).blk t).view.set := by
  have hi0 : (i 0).val < 128 := (i 0).isLt
  have hi1 : (i 1).val < 576 := (i 1).isLt
  have hi2 : (i 2).val < 1024 := (i 2).isLt
  have hN : cfg0.N = 128 := N_0
  obtain ⟨t, ht⟩ : ∃ t : Fin cfg0.N, t.val = (i 0).val := ⟨⟨(i 0).val, by omega⟩, rfl⟩
  obtain ⟨-, -, ⟨e0, e1, e2⟩, -⟩ := idx_facts t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 576 ≤ (i 1).val ∧ (i 1).val < win0_7.index t (1 : Fin 3) * 576 + 576; omega
  | ⟨2, _⟩ => show win0_7.index t (2 : Fin 3) * 1024 ≤ (i 2).val ∧ (i 2).val < win0_7.index t (2 : Fin 3) * 1024 + 1024; omega

/-- The output array after the run: the layer's output rows, the image rows attending over the text rows. -/
theorem final7 (c : Dev nD) : (dats m 0 c).arrAt 7 cfg0.N
    = (outputArr (m ((c : Thread nD τ).loc main_arg1) : S128x576x1024.Idx → EReal)
        (m ((c : Thread nD τ).loc main_arg0) : S128x256x1024.Idx → EReal)
        (m ((c : Thread nD τ).loc main_arg4) : S1024x1024.Idx → EReal)
        (m ((c : Thread nD τ).loc main_arg5) : S1024.Idx → EReal) : S128x576x1024.Idx → EReal) := by
  rw [← V_main_arg0 m c, ← V_main_arg1 m c]
  exact (dats m 0 c).arrAt_eq_of_cover 7 _ (fun t _ => flushed7_eq m c t) cover7

end Cert.BlocksImg

end
-- ==== Proof.RefTxt.lean ====
/-
  The reference for the direction in which the 256 text rows attend over the 576 image rows, read at an entry.
  The reference works on the whole batch at once; at batch element `b` every stage is the corresponding function
  of `Cert.Attention` of that element's text rows `txt x0 b` and image rows `img x1 b`.
  Two spellings differ from the kernel's: the score product is written with the image factor first and laid out
  `[b, c, q]` before a transpose, and the row maximum is taken once more against the fold's own start.
-/
import proofs.«110716_j39582418600215_2_alg».proof.Proof.Gen.ReferenceIdeal.Read
import proofs.«110716_j39582418600215_2_alg».proof.Proof.Attention
import proofs.«110716_j39582418600215_2_alg».proof.Proof.Spec
import Idealize.ShloMosaic.Lib.ValueIdx
import Idealize.ShloMosaic.PureOps.Ideal.Laws

noncomputable section

open scoped BigOperators

namespace Cert.RefTxt

open Idealize.ShloMosaic Idealize.ShloMosaic.ValueIdx Cert.ReferenceIdeal Cert.ReferenceIdeal.Gen Cert.ReferenceIdeal.Read
open Cert.Attention

/-- Two indices of a rank-3 shape with the same coordinates are equal. -/
local macro "idx3" : tactic =>
  `(tactic| (funext a; refine Fin.ext ?_; match a with | ⟨0, _⟩ => rfl | ⟨1, _⟩ => rfl | ⟨2, _⟩ => rfl))
local macro "idx2" : tactic =>
  `(tactic| (funext a; refine Fin.ext ?_; match a with | ⟨0, _⟩ => rfl | ⟨1, _⟩ => rfl))
local macro "idx1" : tactic =>
  `(tactic| (funext a; refine Fin.ext ?_; match a with | ⟨0, _⟩ => rfl))

abbrev eps : EReal := Ideal.ofBits .f32 0x322BCC77#32
abbrev scale : EReal := Ideal.ofBits .f32 0x41100000#32
abbrev ninf : EReal := Ideal.ofBits .f32 0xFF800000#32

/-- The text rows of batch element `b`. -/
def txt (x0 : (⟨S128x256x1024, .f32⟩ : BufTy).Contents (Elt Ideal)) (b : Fin 128) : Fin 256 → Fin 1024 → EReal :=
  fun q h => x0 (ix3 b q h)
/-- The image rows of batch element `b`. -/
def img (x1 : (⟨S128x576x1024, .f32⟩ : BufTy).Contents (Elt Ideal)) (b : Fin 128) : Fin 576 → Fin 1024 → EReal :=
  fun c h => x1 (ix3 b c h)

variable (x0 : (⟨S128x256x1024, .f32⟩ : BufTy).Contents (Elt Ideal)) (x1 : (⟨S128x576x1024, .f32⟩ : BufTy).Contents (Elt Ideal))

/-- The clipped scores, laid out `[b, c, q]`. -/
theorem v1_read (b : Fin 128) (c : Fin 576) (q : Fin 256) :
    val_main_v1 (F := Ideal) x0 x1 (ix3 b c q) = score (txt x0 b) (img x1 b) q c := by
  rw [val_main_v1_apply, val_main_v0_apply, val_main_call0_v0_apply, val_main_call0_cst_apply, ← score_comm]
  show max (∑ k : Fin 1024, x1 (lidx_main_v0 (ix3 b c q) k) * x0 (ridx_main_v0 (ix3 b c q) k)) (Ideal.ofBits .f32 0x00000000#32)
    = max (∑ h : Fin 1024, x1 (ix3 b c h) * x0 (ix3 b q h)) 0
  rw [Ideal.ofBits_zero_f32]
  refine congrArg (max · 0) (Finset.sum_congr rfl fun k _ => ?_)
  rw [show lidx_main_v0 (ix3 b c q) k = ix3 b c k by idx3, show ridx_main_v0 (ix3 b c q) k = ix3 b q k by idx3]

/-- The normalised and scaled scores, laid out `[b, q, c]`. -/
theorem v11_read (b : Fin 128) (q : Fin 256) (c : Fin 576) :
    val_main_v11 (F := Ideal) x0 x1 (ix3 b q c) = normalize eps scale (score (txt x0 b) (img x1 b)) q c := by
  rw [val_main_v11_apply, val_main_v9_apply, val_main_v10_apply, val_main_cst_1_apply,
    show idx_main_v9 (ix3 b q c) = ix3 b c q by idx3, val_main_v8_apply, v1_read, val_main_v7_apply, val_main_v6_apply,
    val_main_v4_apply, val_main_v5_apply, val_main_cst_0_apply, val_main_v3_apply, val_main_cst_apply]
  show Ideal.div (score (txt x0 b) (img x1 b) q c) ((Ideal.ofBits .f32 0x00000000#32
      + ∑ k : Fin 256, val_main_v2 (F := Ideal) x0 x1 (idx_main_v3 (idx_main_v4 (idx_main_v7 (ix3 b c q))) k)) + eps) * scale
    = Ideal.div (score (txt x0 b) (img x1 b) q c) ((∑ q' : Fin 256, max (score (txt x0 b) (img x1 b) q' c)
      (-(score (txt x0 b) (img x1 b) q' c))) + eps) * scale
  rw [Ideal.ofBits_zero_f32, zero_add]
  refine congrArg (fun s => Ideal.div (score (txt x0 b) (img x1 b) q c) (s + eps) * scale) (Finset.sum_congr rfl fun k _ => ?_)
  rw [show idx_main_v3 (idx_main_v4 (idx_main_v7 (ix3 b c q))) k = ix3 b c k by idx3, val_main_v2_apply, v1_read]
  rfl

/-- The row maximum, with the reference's extra maximum against the fold's start absorbed. -/
theorem v14_read (b : Fin 128) (q : Fin 256) :
    val_main_v14 (F := Ideal) x0 x1 (ix2 b q) = rowMax ninf (normalize eps scale (score (txt x0 b) (img x1 b))) q := by
  have hR : S128x256x576.Reduces [2] S128x256 := by decide
  rw [val_main_v14_apply, val_main_v13_apply, val_main_cst_3_apply]
  unfold val_main_v12
  refine (congrArg (max ninf) (Host.reduce_eq_fold_single (FloatOps.maximumf (F := Ideal) (φ := .f32))
    (val_main_v11 (F := Ideal) x0 x1) (val_main_cst_2 (F := Ideal))
    reducesTo_S128x256x576_S128x256_d2 hR h_S_ (ix2 b q))).trans ?_
  refine (max_start_fold (Finset.univ : Finset (Fin 576)) ninf
    (val_main_v11 (F := Ideal) x0 x1 ∘ hR.lift (ix2 b q))).trans ?_
  refine congrArg (fun f => (Finset.univ : Finset (Fin 576)).fold max ninf f) (funext fun k => ?_)
  show val_main_v11 (F := Ideal) x0 x1 (hR.lift (ix2 b q) k) = _
  rw [show hR.lift (ix2 b q) k = ix3 b q k by idx3, v11_read]

/-- The exponential of the shifted scores. -/
theorem v18_read (b : Fin 128) (q : Fin 256) (c : Fin 576) :
    val_main_v18 (F := Ideal) x0 x1 (ix3 b q c)
      = Ideal.exp (normalize eps scale (score (txt x0 b) (img x1 b)) q c
          - rowMax ninf (normalize eps scale (score (txt x0 b) (img x1 b))) q) := by
  rw [val_main_v18_apply, val_main_v17_apply, val_main_v16_apply, val_main_v15_apply, v11_read,
    show idx_main_v15 (idx_main_v16 (ix3 b q c)) = ix2 b q by idx2, v14_read]
  rfl

/-- The attention weights. -/
theorem v22_read (b : Fin 128) (q : Fin 256) (c : Fin 576) :
    val_main_v22 (F := Ideal) x0 x1 (ix3 b q c) = weights eps scale ninf (txt x0 b) (img x1 b) q c := by
  rw [val_main_v22_apply, val_main_v21_apply, val_main_v20_apply, val_main_v19_apply, val_main_cst_4_apply, v18_read]
  show Ideal.div _ (Ideal.ofBits .f32 0x00000000#32
      + ∑ k : Fin 576, val_main_v18 (F := Ideal) x0 x1 (idx_main_v19 (idx_main_v20 (idx_main_v21 (ix3 b q c))) k))
    = Ideal.div _ (∑ c' : Fin 576, Ideal.exp (normalize eps scale (score (txt x0 b) (img x1 b)) q c'
          - rowMax ninf (normalize eps scale (score (txt x0 b) (img x1 b))) q))
  rw [Ideal.ofBits_zero_f32, zero_add]
  refine congrArg (Ideal.div _) (Finset.sum_congr rfl fun k _ => ?_)
  rw [show idx_main_v19 (idx_main_v20 (idx_main_v21 (ix3 b q c))) k = ix3 b q k by idx3, v18_read]

/-- The attended context. -/
theorem v23_read (b : Fin 128) (q : Fin 256) (h : Fin 1024) :
    val_main_v23 (F := Ideal) x0 x1 (ix3 b q h) = attend (weights eps scale ninf (txt x0 b) (img x1 b)) (img x1 b) q h := by
  rw [val_main_v23_apply]
  show _ = ∑ c : Fin 576, weights eps scale ninf (txt x0 b) (img x1 b) q c * x1 (ix3 b c h)
  refine Finset.sum_congr rfl fun k _ => ?_
  rw [show lidx_main_v23 (ix3 b q h) k = ix3 b q k by idx3, show ridx_main_v23 (ix3 b q h) k = ix3 b k h by idx3, v22_read]

variable (x2 : (⟨S1024x1024, .f32⟩ : BufTy).Contents (Elt Ideal)) (x3 : (⟨S1024, .f32⟩ : BufTy).Contents (Elt Ideal))

/-- The layer's output. -/
theorem v52_read (b : Fin 128) (q : Fin 256) (o : Fin 1024) :
    val_main_v52 (F := Ideal) x0 x1 x2 x3 (ix3 b q o)
      = output eps scale ninf (txt x0 b) (img x1 b) (fun o h => x2 (ix2 o h)) (fun o => x3 (ix1 o)) q o := by
  rw [val_main_v52_apply, val_main_v51_apply, val_main_v48_apply, val_main_v50_apply, val_main_v49_apply,
    val_main_call2_v0_apply, val_main_call2_cst_apply,
    show idx_main_v49 (idx_main_v50 (ix3 b q o)) = ix1 o by idx1]
  show max ((∑ k : Fin 1024, val_main_v23 (F := Ideal) x0 x1 (lidx_main_v48 (ix3 b q o) k) * x2 (ridx_main_v48 (ix3 b q o) k))
      + x3 (ix1 o)) (Ideal.ofBits .f32 0x00000000#32)
    = max ((∑ h : Fin 1024, attend (weights eps scale ninf (txt x0 b) (img x1 b)) (img x1 b) q h * x2 (ix2 o h)) + x3 (ix1 o)) 0
  rw [Ideal.ofBits_zero_f32]
  refine congrArg (fun s => max (s + x3 (ix1 o)) 0) (Finset.sum_congr rfl fun k _ => ?_)
  rw [show lidx_main_v48 (ix3 b q o) k = ix3 b q k by idx3, show ridx_main_v48 (ix3 b q o) k = ix2 o k by idx2, v23_read]

/-- The reference's attention weights, as a whole array, are the specification's. -/
theorem v22_eq : val_main_v22 (F := Ideal) x0 x1 = Spec.weightsArr x0 x1 := by
  funext i
  obtain ⟨b, q, c, rfl⟩ : ∃ (b : Fin 128) (q : Fin 256) (c : Fin 576), i = ix3 b q c := ⟨i 0, i 1, i 2, eq_ix3 i⟩
  exact v22_read x0 x1 b q c

/-- The reference's output rows, as a whole array, are the specification's. -/
theorem v52_eq : val_main_v52 (F := Ideal) x0 x1 x2 x3 = Spec.outputArr x0 x1 x2 x3 := by
  funext i
  obtain ⟨b, q, o, rfl⟩ : ∃ (b : Fin 128) (q : Fin 256) (o : Fin 1024), i = ix3 b q o := ⟨i 0, i 1, i 2, eq_ix3 i⟩
  exact v52_read x0 x1 x2 x3 b q o

end Cert.RefTxt

end
-- ==== Proof.RefImg.lean ====
/-
  The reference for the direction in which the 576 image rows attend over the 256 text rows, read at an entry.
  The reference works on the whole batch at once; at batch element `b` every stage is the corresponding function
  of `Cert.Attention` of that element's image rows `img x1 b` and text rows `txt x0 b`.
  Two spellings differ from the kernel's: the score product is written with the text factor first and laid out
  `[b, c, q]` before a transpose, and the row maximum is taken once more against the fold's own start.
-/
import proofs.«110716_j39582418600215_2_alg».proof.Proof.Gen.ReferenceIdeal.Read
import proofs.«110716_j39582418600215_2_alg».proof.Proof.Attention
import proofs.«110716_j39582418600215_2_alg».proof.Proof.Spec
import Idealize.ShloMosaic.Lib.ValueIdx
import Idealize.ShloMosaic.PureOps.Ideal.Laws

noncomputable section

open scoped BigOperators

namespace Cert.RefImg

open Idealize.ShloMosaic Idealize.ShloMosaic.ValueIdx Cert.ReferenceIdeal Cert.ReferenceIdeal.Gen Cert.ReferenceIdeal.Read
open Cert.Attention

/-- Two indices of a rank-3 shape with the same coordinates are equal. -/
local macro "idx3" : tactic =>
  `(tactic| (funext a; refine Fin.ext ?_; match a with | ⟨0, _⟩ => rfl | ⟨1, _⟩ => rfl | ⟨2, _⟩ => rfl))
local macro "idx2" : tactic =>
  `(tactic| (funext a; refine Fin.ext ?_; match a with | ⟨0, _⟩ => rfl | ⟨1, _⟩ => rfl))
local macro "idx1" : tactic =>
  `(tactic| (funext a; refine Fin.ext ?_; match a with | ⟨0, _⟩ => rfl))

abbrev eps : EReal := Ideal.ofBits .f32 0x322BCC77#32
abbrev scale : EReal := Ideal.ofBits .f32 0x41100000#32
abbrev ninf : EReal := Ideal.ofBits .f32 0xFF800000#32

/-- The text rows of batch element `b`. -/
def txt (x0 : (⟨S128x256x1024, .f32⟩ : BufTy).Contents (Elt Ideal)) (b : Fin 128) : Fin 256 → Fin 1024 → EReal :=
  fun q h => x0 (ix3 b q h)
/-- The image rows of batch element `b`. -/
def img (x1 : (⟨S128x576x1024, .f32⟩ : BufTy).Contents (Elt Ideal)) (b : Fin 128) : Fin 576 → Fin 1024 → EReal :=
  fun c h => x1 (ix3 b c h)

variable (x0 : (⟨S128x256x1024, .f32⟩ : BufTy).Contents (Elt Ideal)) (x1 : (⟨S128x576x1024, .f32⟩ : BufTy).Contents (Elt Ideal))

/-- The clipped scores, laid out `[b, c, q]`. -/
theorem v1_read (b : Fin 128) (c : Fin 256) (q : Fin 576) :
    val_main_v25 (F := Ideal) x0 x1 (ix3 b c q) = score (img x1 b) (txt x0 b) q c := by
  rw [val_main_v25_apply, val_main_v24_apply, val_main_call1_v0_apply, val_main_call1_cst_apply, ← score_comm]
  show max (∑ k : Fin 1024, x0 (lidx_main_v24 (ix3 b c q) k) * x1 (ridx_main_v24 (ix3 b c q) k)) (Ideal.ofBits .f32 0x00000000#32)
    = max (∑ h : Fin 1024, x0 (ix3 b c h) * x1 (ix3 b q h)) 0
  rw [Ideal.ofBits_zero_f32]
  refine congrArg (max · 0) (Finset.sum_congr rfl fun k _ => ?_)
  rw [show lidx_main_v24 (ix3 b c q) k = ix3 b c k by idx3, show ridx_main_v24 (ix3 b c q) k = ix3 b q k by idx3]

/-- The normalised and scaled scores, laid out `[b, q, c]`. -/
theorem v11_read (b : Fin 128) (q : Fin 576) (c : Fin 256) :
    val_main_v35 (F := Ideal) x0 x1 (ix3 b q c) = normalize eps scale (score (img x1 b) (txt x0 b)) q c := by
  rw [val_main_v35_apply, val_main_v33_apply, val_main_v34_apply, val_main_cst_7_apply,
    show idx_main_v33 (ix3 b q c) = ix3 b c q by idx3, val_main_v32_apply, v1_read, val_main_v31_apply, val_main_v30_apply,
    val_main_v28_apply, val_main_v29_apply, val_main_cst_6_apply, val_main_v27_apply, val_main_cst_5_apply]
  show Ideal.div (score (img x1 b) (txt x0 b) q c) ((Ideal.ofBits .f32 0x00000000#32
      + ∑ k : Fin 576, val_main_v26 (F := Ideal) x0 x1 (idx_main_v27 (idx_main_v28 (idx_main_v31 (ix3 b c q))) k)) + eps) * scale
    = Ideal.div (score (img x1 b) (txt x0 b) q c) ((∑ q' : Fin 576, max (score (img x1 b) (txt x0 b) q' c)
      (-(score (img x1 b) (txt x0 b) q' c))) + eps) * scale
  rw [Ideal.ofBits_zero_f32, zero_add]
  refine congrArg (fun s => Ideal.div (score (img x1 b) (txt x0 b) q c) (s + eps) * scale) (Finset.sum_congr rfl fun k _ => ?_)
  rw [show idx_main_v27 (idx_main_v28 (idx_main_v31 (ix3 b c q))) k = ix3 b c k by idx3, val_main_v26_apply, v1_read]
  rfl

/-- The row maximum, with the reference's extra maximum against the fold's start absorbed. -/
theorem v14_read (b : Fin 128) (q : Fin 576) :
    val_main_v38 (F := Ideal) x0 x1 (ix2 b q) = rowMax ninf (normalize eps scale (score (img x1 b) (txt x0 b))) q := by
  have hR : S128x576x256.Reduces [2] S128x576 := by decide
  rw [val_main_v38_apply, val_main_v37_apply, val_main_cst_9_apply]
  unfold val_main_v36
  refine (congrArg (max ninf) (Host.reduce_eq_fold_single (FloatOps.maximumf (F := Ideal) (φ := .f32))
    (val_main_v35 (F := Ideal) x0 x1) (val_main_cst_8 (F := Ideal))
    reducesTo_S128x576x256_S128x576_d2 hR h_S_ (ix2 b q))).trans ?_
  refine (max_start_fold (Finset.univ : Finset (Fin 256)) ninf
    (val_main_v35 (F := Ideal) x0 x1 ∘ hR.lift (ix2 b q))).trans ?_
  refine congrArg (fun f => (Finset.univ : Finset (Fin 256)).fold max ninf f) (funext fun k => ?_)
  show val_main_v35 (F := Ideal) x0 x1 (hR.lift (ix2 b q) k) = _
  rw [show hR.lift (ix2 b q) k = ix3 b q k by idx3, v11_read]

/-- The exponential of the shifted scores. -/
theorem v18_read (b : Fin 128) (q : Fin 576) (c : Fin 256) :
    val_main_v42 (F := Ideal) x0 x1 (ix3 b q c)
      = Ideal.exp (normalize eps scale (score (img x1 b) (txt x0 b)) q c
          - rowMax ninf (normalize eps scale (score (img x1 b) (txt x0 b))) q) := by
  rw [val_main_v42_apply, val_main_v41_apply, val_main_v40_apply, val_main_v39_apply, v11_read,
    show idx_main_v39 (idx_main_v40 (ix3 b q c)) = ix2 b q by idx2, v14_read]
  rfl

/-- The attention weights. -/
theorem v22_read (b : Fin 128) (q : Fin 576) (c : Fin 256) :
    val_main_v46 (F := Ideal) x0 x1 (ix3 b q c) = weights eps scale ninf (img x1 b) (txt x0 b) q c := by
  rw [val_main_v46_apply, val_main_v45_apply, val_main_v44_apply, val_main_v43_apply, val_main_cst_10_apply, v18_read]
  show Ideal.div _ (Ideal.ofBits .f32 0x00000000#32
      + ∑ k : Fin 256, val_main_v42 (F := Ideal) x0 x1 (idx_main_v43 (idx_main_v44 (idx_main_v45 (ix3 b q c))) k))
    = Ideal.div _ (∑ c' : Fin 256, Ideal.exp (normalize eps scale (score (img x1 b) (txt x0 b)) q c'
          - rowMax ninf (normalize eps scale (score (img x1 b) (txt x0 b))) q))
  rw [Ideal.ofBits_zero_f32, zero_add]
  refine congrArg (Ideal.div _) (Finset.sum_congr rfl fun k _ => ?_)
  rw [show idx_main_v43 (idx_main_v44 (idx_main_v45 (ix3 b q c))) k = ix3 b q k by idx3, v18_read]

/-- The attended context. -/
theorem v23_read (b : Fin 128) (q : Fin 576) (h : Fin 1024) :
    val_main_v47 (F := Ideal) x0 x1 (ix3 b q h) = attend (weights eps scale ninf (img x1 b) (txt x0 b)) (txt x0 b) q h := by
  rw [val_main_v47_apply]
  show _ = ∑ c : Fin 256, weights eps scale ninf (img x1 b) (txt x0 b) q c * x0 (ix3 b c h)
  refine Finset.sum_congr rfl fun k _ => ?_
  rw [show lidx_main_v47 (ix3 b q h) k = ix3 b q k by idx3, show ridx_main_v47 (ix3 b q h) k = ix3 b k h by idx3, v22_read]

variable (x4 : (⟨S1024x1024, .f32⟩ : BufTy).Contents (Elt Ideal)) (x5 : (⟨S1024, .f32⟩ : BufTy).Contents (Elt Ideal))

/-- The layer's output. -/
theorem v52_read (b : Fin 128) (q : Fin 576) (o : Fin 1024) :
    val_main_v57 (F := Ideal) x0 x1 x4 x5 (ix3 b q o)
      = output eps scale ninf (img x1 b) (txt x0 b) (fun o h => x4 (ix2 o h)) (fun o => x5 (ix1 o)) q o := by
  rw [val_main_v57_apply, val_main_v56_apply, val_main_v53_apply, val_main_v55_apply, val_main_v54_apply,
    val_main_call3_v0_apply, val_main_call3_cst_apply,
    show idx_main_v54 (idx_main_v55 (ix3 b q o)) = ix1 o by idx1]
  show max ((∑ k : Fin 1024, val_main_v47 (F := Ideal) x0 x1 (lidx_main_v53 (ix3 b q o) k) * x4 (ridx_main_v53 (ix3 b q o) k))
      + x5 (ix1 o)) (Ideal.ofBits .f32 0x00000000#32)
    = max ((∑ h : Fin 1024, attend (weights eps scale ninf (img x1 b) (txt x0 b)) (txt x0 b) q h * x4 (ix2 o h)) + x5 (ix1 o)) 0
  rw [Ideal.ofBits_zero_f32]
  refine congrArg (fun s => max (s + x5 (ix1 o)) 0) (Finset.sum_congr rfl fun k _ => ?_)
  rw [show lidx_main_v53 (ix3 b q o) k = ix3 b q k by idx3, show ridx_main_v53 (ix3 b q o) k = ix2 o k by idx2, v23_read]

/-- The reference's attention weights, as a whole array, are the specification's (the image rows are the queries). -/
theorem v22_eq : val_main_v46 (F := Ideal) x0 x1 = Spec.weightsArr x1 x0 := by
  funext i
  obtain ⟨b, q, c, rfl⟩ : ∃ (b : Fin 128) (q : Fin 576) (c : Fin 256), i = ix3 b q c := ⟨i 0, i 1, i 2, eq_ix3 i⟩
  exact v22_read x0 x1 b q c

/-- The reference's output rows, as a whole array, are the specification's (the image rows are the queries). -/
theorem v52_eq : val_main_v57 (F := Ideal) x0 x1 x4 x5 = Spec.outputArr x1 x0 x4 x5 := by
  funext i
  obtain ⟨b, q, o, rfl⟩ : ∃ (b : Fin 128) (q : Fin 576) (o : Fin 1024), i = ix3 b q o := ⟨i 0, i 1, i 2, eq_ix3 i⟩
  exact v52_read x0 x1 x4 x5 b q o

end Cert.RefImg

end
-- ==== Proof.lean ====
/-
  A fused cross-attention layer against its reference, over the extended reals.
  For each of 128 batch elements, 256 text rows and 576 image rows of 1024 features attend over each other:
  in each direction the clipped scores `max (x · y) 0` are normalised column by column by their L1 norm over the
  queries (plus a constant), scaled, put through a row softmax, and the attention-weighted context rows go through
  a dense layer `X · Wᵀ + b` clipped at zero. The kernel handles one batch element per grid point and stores the two
  weight arrays and the two output arrays block by block; the reference computes the same four arrays on the whole
  batch. Both end at the whole-array functions of `Cert.Spec` of the arguments: the kernel's blocks tile each
  result array (`Cert.BlocksTxt`, `Cert.BlocksImg`), and the reference's stages are the same functions entry by
  entry (`Cert.RefTxt`, `Cert.RefImg`) — its score product with the factors in the other order and a transposed
  layout, its row maximum taken once more against the fold's own start. No law used needs the inputs to be finite.
  The idealization rewrote nothing, so the kernel's idealized text is its own text read over the extended reals.
-/
import proofs.«110716_j39582418600215_2_alg».proof.Defs
import proofs.«110716_j39582418600215_2_alg».proof.Proof.Gen.Kernel
import proofs.«110716_j39582418600215_2_alg».proof.Proof.Gen.Kernel.Skeleton
import proofs.«110716_j39582418600215_2_alg».proof.Proof.Gen.Kernel.Launch
import proofs.«110716_j39582418600215_2_alg».proof.Proof.Gen.Kernel.Points
import proofs.«110716_j39582418600215_2_alg».proof.Proof.Gen.Kernel.Frame
import proofs.«110716_j39582418600215_2_alg».proof.Proof.Gen.KernelIdeal
import proofs.«110716_j39582418600215_2_alg».proof.Proof.Gen.KernelIdeal.Skeleton
import proofs.«110716_j39582418600215_2_alg».proof.Proof.Gen.KernelIdeal.Launch
import proofs.«110716_j39582418600215_2_alg».proof.Proof.Gen.KernelIdeal.Points
import proofs.«110716_j39582418600215_2_alg».proof.Proof.Gen.KernelIdeal.Frame
import proofs.«110716_j39582418600215_2_alg».proof.Proof.Gen.ReferenceIdeal
import proofs.«110716_j39582418600215_2_alg».proof.Proof.Gen.Pre_finite_inputs
import proofs.«110716_j39582418600215_2_alg».proof.Proof.Gen.KernelIdeal.Value
import proofs.«110716_j39582418600215_2_alg».proof.Proof.Gen.ReferenceIdeal.Run
import proofs.«110716_j39582418600215_2_alg».proof.Proof.Gen.ReferenceIdeal.Read
import proofs.«110716_j39582418600215_2_alg».proof.Proof.BlocksTxt
import proofs.«110716_j39582418600215_2_alg».proof.Proof.BlocksImg
import proofs.«110716_j39582418600215_2_alg».proof.Proof.RefTxt
import proofs.«110716_j39582418600215_2_alg».proof.Proof.RefImg
import Idealize.ShloMosaic.Adequacy
import Idealize.ShloMosaic.Init

noncomputable section

namespace Cert.Proof

open Idealize.ShloMosaic Idealize.ShloMosaic.TcCoe Idealize.SL.Sem

section KernelRun

open Cert.KernelIdeal Cert.KernelIdeal.Gen Cert.Spec

variable (m : (ℓ : Loc nD τ sig) → Buf (Elt Ideal) ℓ) (ρ : Dev nD → PrngReg)

/-- The kernel's run: each of the four result arrays ends at its whole-array function of the arguments, and the
    arguments end unchanged. -/
theorem kernel_run : θ_run defs (onTc (τ := τ) (main (F := Ideal))) ⟨m, fun _ => 0, ρ⟩ fun r => ∀ c : Dev nD,
      r.2.mem ((c : Thread nD τ).loc main_v4_0)
        = (outputArr (m ((c : Thread nD τ).loc main_arg0) : S128x256x1024.Idx → EReal)
            (m ((c : Thread nD τ).loc main_arg1) : S128x576x1024.Idx → EReal)
            (m ((c : Thread nD τ).loc main_arg2) : S1024x1024.Idx → EReal)
            (m ((c : Thread nD τ).loc main_arg3) : S1024.Idx → EReal) : S128x256x1024.Idx → EReal)
      ∧ r.2.mem ((c : Thread nD τ).loc main_v4_1)
        = (outputArr (m ((c : Thread nD τ).loc main_arg1) : S128x576x1024.Idx → EReal)
            (m ((c : Thread nD τ).loc main_arg0) : S128x256x1024.Idx → EReal)
            (m ((c : Thread nD τ).loc main_arg4) : S1024x1024.Idx → EReal)
            (m ((c : Thread nD τ).loc main_arg5) : S1024.Idx → EReal) : S128x576x1024.Idx → EReal)
      ∧ r.2.mem ((c : Thread nD τ).loc main_v4_2)
        = (weightsArr (m ((c : Thread nD τ).loc main_arg0) : S128x256x1024.Idx → EReal)
            (m ((c : Thread nD τ).loc main_arg1) : S128x576x1024.Idx → EReal) : S128x256x576.Idx → EReal)
      ∧ r.2.mem ((c : Thread nD τ).loc main_v4_3)
        = (weightsArr (m ((c : Thread nD τ).loc main_arg1) : S128x576x1024.Idx → EReal)
            (m ((c : Thread nD τ).loc main_arg0) : S128x256x1024.Idx → EReal) : S128x576x256.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (Cert.BlocksTxt.final6 m c),
      (h c).2.1.trans (Cert.BlocksImg.final7 m c),
      (h c).2.2.1.trans (Cert.BlocksTxt.final8 m c),
      (h c).2.2.2.1.trans (Cert.BlocksImg.final9 m c),
      (h c).2.2.2.2⟩)
    (Cert.KernelIdeal.Value.run_blocks m ρ)

end KernelRun

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Both programs end with each of the four results at the same whole-array function of arguments that agree. -/
theorem algebraic : Cert.algebraic_KernelIdeal_ReferenceIdeal := by
  intro m ρ m' ρ' _ hagree
  refine ⟨_, _, _, _, kernel_run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2.1.trans ?_, (h c).2.2.2.1.trans ?_, (h c).2.2.2.2⟩
  · rw [Cert.ReferenceIdeal.Read.val_main_v52_eq, Cert.RefTxt.v52_eq, a0, a1, a2, a3]
  · rw [Cert.ReferenceIdeal.Read.val_main_v57_eq, Cert.RefImg.v52_eq, a0, a1, a4, a5]
  · rw [Cert.ReferenceIdeal.Read.val_main_v22_eq, Cert.RefTxt.v22_eq, a0, a1]
  · rw [Cert.ReferenceIdeal.Read.val_main_v46_eq, Cert.RefImg.v22_eq, a0, a1]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
